-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S500000x32 : Shape := ⟨2, ![500000, 32]⟩
abbrev S512x64 : Shape := ⟨2, ![512, 64]⟩
abbrev S512x8 : Shape := ⟨2, ![512, 8]⟩
abbrev S500000 : Shape := ⟨1, ![500000]⟩
abbrev S50000 : Shape := ⟨1, ![50000]⟩
abbrev S32x256 : Shape := ⟨2, ![32, 256]⟩
abbrev S256 : Shape := ⟨1, ![256]⟩
abbrev S64x256 : Shape := ⟨2, ![64, 256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S136x256 : Shape := ⟨2, ![136, 256]⟩
abbrev S256x1 : Shape := ⟨2, ![256, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S512x64 : S_.BroadcastsInDim S512x64 (![] : Fin 0 → Fin S512x64.rank)
  reducesTo_S512x64_S_d0_1 : S512x64.ReducesTo [0, 1] S_
  bcast_S_S512x8 : S_.BroadcastsInDim S512x8 (![] : Fin 0 → Fin S512x8.rank)
  reducesTo_S512x8_S_d0_1 : S512x8.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S136x256 : S_.BroadcastsInDim S136x256 (![] : Fin 0 → Fin S136x256.rank)
  reducesTo_S136x256_S_d0_1 : S136x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg35 : FVec F S1 .f32) (main_v153 : IVec S_ 1) : IVec S_ 1 :=
  let main_v154 : FVec F S1 .f32 := Host.absf main_arg35
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  main_v158

def fn_part8 {F : FTy → Type} [FloatOps F] (main_arg32 : FVec F S256x256 .f32) (main_arg33 : FVec F S256 .f32) (main_arg34 : FVec F S256x1 .f32) (main_arg35 : FVec F S1 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x256 .f32 := Host.absf main_arg32
  let main_cst_54 : FVec F S_ .f32 := constant S_ .f32 0x7F800000#32
  let main_v140 : FVec F S256x256 .f32 := broadcastInDim S256x256 ![] bcast_S_S256x256 main_cst_54
  let main_v141 : IVec S256x256 1 := cmpf .olt main_v139 main_v140
  let main_c_55 : IVec S_ 1 := constantI S_ 1 1#1
  let main_v142 : IVec S_ 1 := (fun x v => Host.reduce IntOp.andi x v reducesTo_S256x256_S_d0_1 h_S_) main_v141 main_c_55
  let main_v143 : IVec S_ 1 := andi main_v138 main_v142
  let main_v144 : FVec F S256 .f32 := Host.absf main_arg33
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256x1 .f32 := Host.absf main_arg34
  let main_cst_58 : FVec F S_ .f32 := constant S_ .f32 0x7F800000#32
  let main_v150 : FVec F S256x1 .f32 := broadcastInDim S256x1 ![] bcast_S_S256x1 main_cst_58
  let main_v151 : IVec S256x1 1 := cmpf .olt main_v149 main_v150
  let main_c_59 : IVec S_ 1 := constantI S_ 1 1#1
  let main_v152 : IVec S_ 1 := (fun x v => Host.reduce IntOp.andi x v reducesTo_S256x1_S_d0_1 h_S_) main_v151 main_c_59
  let main_v153 : IVec S_ 1 := andi main_v148 main_v152
  fn_part9 (F := F) main_arg35 main_v153

def fn_part7 {F : FTy → Type} [FloatOps F] (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg29
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S136x256 .f32 := Host.absf main_arg30
  let main_cst_50 : FVec F S_ .f32 := constant S_ .f32 0x7F800000#32
  let main_v130 : FVec F S136x256 .f32 := broadcastInDim S136x256 ![] bcast_S_S136x256 main_cst_50
  let main_v131 : IVec S136x256 1 := cmpf .olt main_v129 main_v130
  let main_c_51 : IVec S_ 1 := constantI S_ 1 1#1
  let main_v132 : IVec S_ 1 := (fun x v => Host.reduce IntOp.andi x v reducesTo_S136x256_S_d0_1 h_S_) main_v131 main_c_51
  let main_v133 : IVec S_ 1 := andi main_v128 main_v132
  let main_v134 : FVec F S256 .f32 := Host.absf main_arg31
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg32 main_arg33 main_arg34 main_arg35 main_v133 main_v136

def fn_part6 {F : FTy → Type} [FloatOps F] (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128x128 .f32 := Host.absf main_arg25
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128x128 .f32 := Host.absf main_arg26
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg27
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg28
  fn_part7 (F := F) main_arg29 main_arg30 main_arg31 main_arg32 main_arg33 main_arg34 main_arg35 main_v118 main_v119

def fn_part5 {F : FTy → Type} [FloatOps F] (main_arg22 : FVec F S128x128 .f32) (main_arg23 : FVec F S128 .f32) (main_arg24 : FVec F S256x128 .f32) (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x128 .f32 := Host.absf main_arg24
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg25 main_arg26 main_arg27 main_arg28 main_arg29 main_arg30 main_arg31 main_arg32 main_arg33 main_arg34 main_arg35 main_v98 main_v101 main_c_39

def fn_part4 {F : FTy → Type} [FloatOps F] (main_arg18 : FVec F S256x128 .f32) (main_arg19 : FVec F S128 .f32) (main_arg20 : FVec F S256x128 .f32) (main_arg21 : FVec F S128x128 .f32) (main_arg22 : FVec F S128x128 .f32) (main_arg23 : FVec F S128 .f32) (main_arg24 : FVec F S256x128 .f32) (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v63 : IVec S_ 1) (main_v67 : IVec S_ 1) : IVec S_ 1 :=
  let main_v68 : IVec S_ 1 := andi main_v63 main_v67
  let main_v69 : FVec F S256x128 .f32 := Host.absf main_arg18
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg20
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128x128 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg15 : FVec F S256x256 .f32) (main_arg16 : FVec F S256x256 .f32) (main_arg17 : FVec F S256 .f32) (main_arg18 : FVec F S256x128 .f32) (main_arg19 : FVec F S128 .f32) (main_arg20 : FVec F S256x128 .f32) (main_arg21 : FVec F S128x128 .f32) (main_arg22 : FVec F S128x128 .f32) (main_arg23 : FVec F S128 .f32) (main_arg24 : FVec F S256x128 .f32) (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg16
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg11 : FVec F S256x256 .f32) (main_arg12 : FVec F S256x256 .f32) (main_arg13 : FVec F S256 .f32) (main_arg14 : FVec F S64x256 .f32) (main_arg15 : FVec F S256x256 .f32) (main_arg16 : FVec F S256x256 .f32) (main_arg17 : FVec F S256 .f32) (main_arg18 : FVec F S256x128 .f32) (main_arg19 : FVec F S128 .f32) (main_arg20 : FVec F S256x128 .f32) (main_arg21 : FVec F S128x128 .f32) (main_arg22 : FVec F S128x128 .f32) (main_arg23 : FVec F S128 .f32) (main_arg24 : FVec F S256x128 .f32) (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x256 .f32 := Host.absf main_arg14
  let main_cst_18 : FVec F S_ .f32 := constant S_ .f32 0x7F800000#32
  let main_v50 : FVec F S64x256 .f32 := broadcastInDim S64x256 ![] bcast_S_S64x256 main_cst_18
  fn_part3 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg8 : FVec F S32x256 .f32) (main_arg9 : FVec F S256 .f32) (main_arg10 : FVec F S64x256 .f32) (main_arg11 : FVec F S256x256 .f32) (main_arg12 : FVec F S256x256 .f32) (main_arg13 : FVec F S256 .f32) (main_arg14 : FVec F S64x256 .f32) (main_arg15 : FVec F S256x256 .f32) (main_arg16 : FVec F S256x256 .f32) (main_arg17 : FVec F S256 .f32) (main_arg18 : FVec F S256x128 .f32) (main_arg19 : FVec F S128 .f32) (main_arg20 : FVec F S256x128 .f32) (main_arg21 : FVec F S128x128 .f32) (main_arg22 : FVec F S128x128 .f32) (main_arg23 : FVec F S128 .f32) (main_arg24 : FVec F S256x128 .f32) (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) (main_v13 : IVec S_ 1) (main_v16 : IVec S512x8 1) : IVec S_ 1 :=
  let main_c_5 : IVec S_ 1 := constantI S_ 1 1#1
  let main_v17 : IVec S_ 1 := (fun x v => Host.reduce IntOp.andi x v reducesTo_S512x8_S_d0_1 h_S_) main_v16 main_c_5
  let main_v18 : IVec S_ 1 := andi main_v13 main_v17
  let main_v19 : FVec F S32x256 .f32 := Host.absf main_arg8
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg10
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S50000x64 .f32) (main_arg1 : FVec F S500000x32 .f32) (main_arg2 : FVec F S512x64 .f32) (main_arg3 : FVec F S512x8 .f32) (main_arg4 : IVec S500000 32) (main_arg5 : IVec S500000 32) (main_arg6 : IVec S50000 32) (main_arg7 : IVec S500000 32) (main_arg8 : FVec F S32x256 .f32) (main_arg9 : FVec F S256 .f32) (main_arg10 : FVec F S64x256 .f32) (main_arg11 : FVec F S256x256 .f32) (main_arg12 : FVec F S256x256 .f32) (main_arg13 : FVec F S256 .f32) (main_arg14 : FVec F S64x256 .f32) (main_arg15 : FVec F S256x256 .f32) (main_arg16 : FVec F S256x256 .f32) (main_arg17 : FVec F S256 .f32) (main_arg18 : FVec F S256x128 .f32) (main_arg19 : FVec F S128 .f32) (main_arg20 : FVec F S256x128 .f32) (main_arg21 : FVec F S128x128 .f32) (main_arg22 : FVec F S128x128 .f32) (main_arg23 : FVec F S128 .f32) (main_arg24 : FVec F S256x128 .f32) (main_arg25 : FVec F S128x128 .f32) (main_arg26 : FVec F S128x128 .f32) (main_arg27 : FVec F S128 .f32) (main_arg28 : FVec F S128x128 .f32) (main_arg29 : FVec F S128 .f32) (main_arg30 : FVec F S136x256 .f32) (main_arg31 : FVec F S256 .f32) (main_arg32 : FVec F S256x256 .f32) (main_arg33 : FVec F S256 .f32) (main_arg34 : FVec F S256x1 .f32) (main_arg35 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S500000x32 .f32 := Host.absf main_arg1
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x8 .f32 := Host.absf main_arg3
  let main_cst_4 : FVec F S_ .f32 := constant S_ .f32 0x7F800000#32
  let main_v15 : FVec F S512x8 .f32 := broadcastInDim S512x8 ![] bcast_S_S512x8 main_cst_4
  let main_v16 : IVec S512x8 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S50000x64 : Shape := ⟨2, ![50000, 64]⟩
abbrev S500000x32 : Shape := ⟨2, ![500000, 32]⟩
abbrev S512x64 : Shape := ⟨2, ![512, 64]⟩
abbrev S512x8 : Shape := ⟨2, ![512, 8]⟩
abbrev S500000 : Shape := ⟨1, ![500000]⟩
abbrev S50000 : Shape := ⟨1, ![50000]⟩
abbrev S32x256 : Shape := ⟨2, ![32, 256]⟩
abbrev S256 : Shape := ⟨1, ![256]⟩
abbrev S64x256 : Shape := ⟨2, ![64, 256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S136x256 : Shape := ⟨2, ![136, 256]⟩
abbrev S256x1 : Shape := ⟨2, ![256, 1]⟩
abbrev S1 : Shape := ⟨1, ![1]⟩
abbrev S500000x256 : Shape := ⟨2, ![500000, 256]⟩
abbrev S5000x32 : Shape := ⟨2, ![5000, 32]⟩
abbrev S5000x256 : Shape := ⟨2, ![5000, 256]⟩
abbrev S1x256 : Shape := ⟨2, ![1, 256]⟩
abbrev S_ : Shape := ⟨0, ![]⟩
abbrev S50000x256 : Shape := ⟨2, ![50000, 256]⟩
abbrev S500000x1 : Shape := ⟨2, ![500000, 1]⟩
abbrev S50000x1 : Shape := ⟨2, ![50000, 1]⟩
abbrev S2000x64 : Shape := ⟨2, ![2000, 64]⟩
abbrev S2000x256 : Shape := ⟨2, ![2000, 256]⟩
abbrev S512x256 : Shape := ⟨2, ![512, 256]⟩
abbrev S512x1 : Shape := ⟨2, ![512, 1]⟩
abbrev S500000x128 : Shape := ⟨2, ![500000, 128]⟩
abbrev S5000x128 : Shape := ⟨2, ![5000, 128]⟩
abbrev S1x128 : Shape := ⟨2, ![1, 128]⟩
abbrev S50000x128 : Shape := ⟨2, ![50000, 128]⟩
abbrev S2000x128 : Shape := ⟨2, ![2000, 128]⟩
abbrev S512x128 : Shape := ⟨2, ![512, 128]⟩
abbrev S512x136 : Shape := ⟨2, ![512, 136]⟩
abbrev S1x1 : Shape := ⟨2, ![1, 1]⟩

abbrev nBuf : Space → Nat
  | .hbm => 205
  | .vmem => 36
  | .smem => 0
  | _ => 0

abbrev hbmTy0_0 (i : Nat) : BufTy := match i % 128 with
  | 0 => ⟨S50000x64, .f32⟩
  | 1 => ⟨S500000x32, .f32⟩
  | 2 => ⟨S512x64, .f32⟩
  | 3 => ⟨S512x8, .f32⟩
  | 4 => ⟨S500000, .i32⟩
  | 5 => ⟨S500000, .i32⟩
  | 6 => ⟨S50000, .i32⟩
  | 7 => ⟨S500000, .i32⟩
  | 8 => ⟨S32x256, .f32⟩
  | 9 => ⟨S256, .f32⟩
  | 10 => ⟨S64x256, .f32⟩
  | 11 => ⟨S256x256, .f32⟩
  | 12 => ⟨S256x256, .f32⟩
  | 13 => ⟨S256, .f32⟩
  | 14 => ⟨S64x256, .f32⟩
  | 15 => ⟨S256x256, .f32⟩
  | 16 => ⟨S256x256, .f32⟩
  | 17 => ⟨S256, .f32⟩
  | 18 => ⟨S256x128, .f32⟩
  | 19 => ⟨S128, .f32⟩
  | 20 => ⟨S256x128, .f32⟩
  | 21 => ⟨S128x128, .f32⟩
  | 22 => ⟨S128x128, .f32⟩
  | 23 => ⟨S128, .f32⟩
  | 24 => ⟨S256x128, .f32⟩
  | 25 => ⟨S128x128, .f32⟩
  | 26 => ⟨S128x128, .f32⟩
  | 27 => ⟨S128, .f32⟩
  | 28 => ⟨S128x128, .f32⟩
  | 29 => ⟨S128, .f32⟩
  | 30 => ⟨S136x256, .f32⟩
  | 31 => ⟨S256, .f32⟩
  | 32 => ⟨S256x256, .f32⟩
  | 33 => ⟨S256, .f32⟩
  | 34 => ⟨S256x1, .f32⟩
  | 35 => ⟨S1, .f32⟩
  | 36 => ⟨S500000x256, .f32⟩
  | 37 => ⟨S_, .f32⟩
  | 38 => ⟨S50000x256, .f32⟩
  | 39 => ⟨S500000x1, .i32⟩
  | 40 => ⟨S50000x256, .f32⟩
  | 41 => ⟨S_, .f32⟩
  | 42 => ⟨S500000x1, .f32⟩
  | 43 => ⟨S_, .f32⟩
  | 44 => ⟨S50000x1, .f32⟩
  | 45 => ⟨S500000x1, .i32⟩
  | 46 => ⟨S50000x1, .f32⟩
  | 47 => ⟨S_, .f32⟩
  | 48 => ⟨S50000x1, .f32⟩
  | 49 => ⟨S50000x1, .f32⟩
  | 50 => ⟨S50000x256, .f32⟩
  | 51 => ⟨S50000x256, .f32⟩
  | 52 => ⟨S_, .f32⟩
  | 53 => ⟨S50000x256, .f32⟩
  | 54 => ⟨S500000x1, .i32⟩
  | 55 => ⟨S50000x256, .f32⟩
  | 56 => ⟨S_, .f32⟩
  | 57 => ⟨S500000x1, .f32⟩
  | 58 => ⟨S_, .f32⟩
  | 59 => ⟨S50000x1, .f32⟩
  | 60 => ⟨S500000x1, .i32⟩
  | 61 => ⟨S50000x1, .f32⟩
  | 62 => ⟨S_, .f32⟩
  | 63 => ⟨S50000x1, .f32⟩
  | 64 => ⟨S50000x1, .f32⟩
  | 65 => ⟨S50000x256, .f32⟩
  | 66 => ⟨S50000x256, .f32⟩
  | 67 => ⟨S50000x256, .f32⟩
  | 68 => ⟨S512x256, .f32⟩
  | 69 => ⟨S_, .f32⟩
  | 70 => ⟨S512x256, .f32⟩
  | 71 => ⟨S50000x1, .i32⟩
  | 72 => ⟨S512x256, .f32⟩
  | 73 => ⟨S_, .f32⟩
  | 74 => ⟨S50000x1, .f32⟩
  | 75 => ⟨S_, .f32⟩
  | 76 => ⟨S512x1, .f32⟩
  | 77 => ⟨S50000x1, .i32⟩
  | 78 => ⟨S512x1, .f32⟩
  | 79 => ⟨S_, .f32⟩
  | 80 => ⟨S512x1, .f32⟩
  | 81 => ⟨S512x1, .f32⟩
  | 82 => ⟨S512x256, .f32⟩
  | 83 => ⟨S512x256, .f32⟩
  | 84 => ⟨S512x256, .f32⟩
  | 85 => ⟨S512x256, .f32⟩
  | 86 => ⟨S_, .f32⟩
  | 87 => ⟨S512x256, .f32⟩
  | 88 => ⟨S500000x1, .i32⟩
  | 89 => ⟨S512x256, .f32⟩
  | 90 => ⟨S_, .f32⟩
  | 91 => ⟨S500000x1, .f32⟩
  | 92 => ⟨S_, .f32⟩
  | 93 => ⟨S512x1, .f32⟩
  | 94 => ⟨S500000x1, .i32⟩
  | 95 => ⟨S512x1, .f32⟩
  | 96 => ⟨S_, .f32⟩
  | 97 => ⟨S512x1, .f32⟩
  | 98 => ⟨S512x1, .f32⟩
  | 99 => ⟨S512x256, .f32⟩
  | 100 => ⟨S512x256, .f32⟩
  | 101 => ⟨S512x256, .f32⟩
  | 102 => ⟨S512x256, .f32⟩
  | 103 => ⟨S1x256, .f32⟩
  | 104 => ⟨S512x256, .f32⟩
  | 105 => ⟨S512x256, .f32⟩
  | 106 => ⟨S_, .f32⟩
  | 107 => ⟨S512x256, .f32⟩
  | 108 => ⟨S512x256, .f32⟩
  | 109 => ⟨S500000x128, .f32⟩
  | 110 => ⟨S_, .f32⟩
  | 111 => ⟨S50000x128, .f32⟩
  | 112 => ⟨S500000x1, .i32⟩
  | 113 => ⟨S50000x128, .f32⟩
  | 114 => ⟨S_, .f32⟩
  | 115 => ⟨S500000x1, .f32⟩
  | 116 => ⟨S_, .f32⟩
  | 117 => ⟨S50000x1, .f32⟩
  | 118 => ⟨S500000x1, .i32⟩
  | 119 => ⟨S50000x1, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S_, .f32⟩
  | 126 => ⟨S50000x128, .f32⟩
  | 127 => ⟨S500000x1, .i32⟩
  | _ => ⟨S50000x64, .f32⟩

abbrev hbmTy0_1 (i : Nat) : BufTy := match i % 128 with
  | 0 => ⟨S50000x128, .f32⟩
  | 1 => ⟨S_, .f32⟩
  | 2 => ⟨S500000x1, .f32⟩
  | 3 => ⟨S_, .f32⟩
  | 4 => ⟨S50000x1, .f32⟩
  | 5 => ⟨S500000x1, .i32⟩
  | 6 => ⟨S50000x1, .f32⟩
  | 7 => ⟨S_, .f32⟩
  | 8 => ⟨S50000x1, .f32⟩
  | 9 => ⟨S50000x1, .f32⟩
  | 10 => ⟨S50000x128, .f32⟩
  | 11 => ⟨S50000x128, .f32⟩
  | 12 => ⟨S50000x128, .f32⟩
  | 13 => ⟨S512x128, .f32⟩
  | 14 => ⟨S_, .f32⟩
  | 15 => ⟨S512x128, .f32⟩
  | 16 => ⟨S50000x1, .i32⟩
  | 17 => ⟨S512x128, .f32⟩
  | 18 => ⟨S_, .f32⟩
  | 19 => ⟨S50000x1, .f32⟩
  | 20 => ⟨S_, .f32⟩
  | 21 => ⟨S512x1, .f32⟩
  | 22 => ⟨S50000x1, .i32⟩
  | 23 => ⟨S512x1, .f32⟩
  | 24 => ⟨S_, .f32⟩
  | 25 => ⟨S512x1, .f32⟩
  | 26 => ⟨S512x1, .f32⟩
  | 27 => ⟨S512x128, .f32⟩
  | 28 => ⟨S512x128, .f32⟩
  | 29 => ⟨S512x128, .f32⟩
  | 30 => ⟨S512x128, .f32⟩
  | 31 => ⟨S_, .f32⟩
  | 32 => ⟨S512x128, .f32⟩
  | 33 => ⟨S500000x1, .i32⟩
  | 34 => ⟨S512x128, .f32⟩
  | 35 => ⟨S_, .f32⟩
  | 36 => ⟨S500000x1, .f32⟩
  | 37 => ⟨S_, .f32⟩
  | 38 => ⟨S512x1, .f32⟩
  | 39 => ⟨S500000x1, .i32⟩
  | 40 => ⟨S512x1, .f32⟩
  | 41 => ⟨S_, .f32⟩
  | 42 => ⟨S512x1, .f32⟩
  | 43 => ⟨S512x1, .f32⟩
  | 44 => ⟨S512x128, .f32⟩
  | 45 => ⟨S512x128, .f32⟩
  | 46 => ⟨S512x128, .f32⟩
  | 47 => ⟨S512x128, .f32⟩
  | 48 => ⟨S1x128, .f32⟩
  | 49 => ⟨S512x128, .f32⟩
  | 50 => ⟨S512x128, .f32⟩
  | 51 => ⟨S_, .f32⟩
  | 52 => ⟨S512x128, .f32⟩
  | 53 => ⟨S512x128, .f32⟩
  | 54 => ⟨S512x128, .f32⟩
  | 55 => ⟨S1x128, .f32⟩
  | 56 => ⟨S512x128, .f32⟩
  | 57 => ⟨S512x128, .f32⟩
  | 58 => ⟨S512x136, .f32⟩
  | 59 => ⟨S512x256, .f32⟩
  | 60 => ⟨S1x256, .f32⟩
  | 61 => ⟨S512x256, .f32⟩
  | 62 => ⟨S512x256, .f32⟩
  | 63 => ⟨S_, .f32⟩
  | 64 => ⟨S512x256, .f32⟩
  | 65 => ⟨S512x256, .f32⟩
  | 66 => ⟨S512x256, .f32⟩
  | 67 => ⟨S1x256, .f32⟩
  | 68 => ⟨S512x256, .f32⟩
  | 69 => ⟨S512x256, .f32⟩
  | 70 => ⟨S_, .f32⟩
  | 71 => ⟨S512x256, .f32⟩
  | 72 => ⟨S512x256, .f32⟩
  | 73 => ⟨S512x1, .f32⟩
  | 74 => ⟨S1x1, .f32⟩
  | 75 => ⟨S512x1, .f32⟩
  | 76 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S2000x64, .f32⟩
  | .local _ .vmem, ⟨7, _⟩ => ⟨S2000x64, .f32⟩
  | .local _ .vmem, ⟨8, _⟩ => ⟨S64x256, .f32⟩
  | .local _ .vmem, ⟨9, _⟩ => ⟨S2000x256, .f32⟩
  | .local _ .vmem, ⟨10, _⟩ => ⟨S2000x256, .f32⟩
  | .local _ .vmem, ⟨11, _⟩ => ⟨S256x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S2000x256, .f32⟩
  | .local _ .vmem, ⟨25, _⟩ => ⟨S2000x256, .f32⟩
  | .local _ .vmem, ⟨26, _⟩ => ⟨S256x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_cst : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_cst_0 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_3 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_4 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_7 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_8 : Ref sig .tc := ⟨.hbm, 73, rfl⟩
abbrev main_v28 : Ref sig .tc := ⟨.hbm, 74, rfl⟩
abbrev main_cst_9 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_10 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_11 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_12 : Ref sig .tc := ⟨.hbm, 90, rfl⟩
abbrev main_v41 : Ref sig .tc := ⟨.hbm, 91, rfl⟩
abbrev main_cst_13 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_14 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_call0_cst : Ref sig .tc := ⟨.hbm, 106, rfl⟩
abbrev main_call0_v0 : Ref sig .tc := ⟨.hbm, 107, rfl⟩
abbrev main_v54 : Ref sig .tc := ⟨.hbm, 108, rfl⟩
abbrev main_v55 : Ref sig .tc := ⟨.hbm, 109, rfl⟩
abbrev main_cst_15 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_16 : Ref sig .tc := ⟨.hbm, 114, rfl⟩
abbrev main_v59 : Ref sig .tc := ⟨.hbm, 115, rfl⟩
abbrev main_cst_17 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_18 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_19 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_20 : Ref sig .tc := ⟨.hbm, 129, rfl⟩
abbrev main_v70 : Ref sig .tc := ⟨.hbm, 130, rfl⟩
abbrev main_cst_21 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_22 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_23 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_24 : Ref sig .tc := ⟨.hbm, 146, rfl⟩
abbrev main_v83 : Ref sig .tc := ⟨.hbm, 147, rfl⟩
abbrev main_cst_25 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_26 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_cst_27 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_28 : Ref sig .tc := ⟨.hbm, 163, rfl⟩
abbrev main_v96 : Ref sig .tc := ⟨.hbm, 164, rfl⟩
abbrev main_cst_29 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_cst_30 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_call1_cst : Ref sig .tc := ⟨.hbm, 179, rfl⟩
abbrev main_call1_v0 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_call2_cst : Ref sig .tc := ⟨.hbm, 191, rfl⟩
abbrev main_call2_v0 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_call3_cst : Ref sig .tc := ⟨.hbm, 198, rfl⟩
abbrev main_call3_v0 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  inb_S2000x64_S2000x64_0_0 : ∀ a, (![0, 0] : Fin 2 → Nat) a + S2000x64.size a ≤ S2000x64.size a
  h_S2000x64 : 0 < S2000x64.numel
  inb_S64x256_S64x256_0_0 : ∀ a, (![0, 0] : Fin 2 → Nat) a + S64x256.size a ≤ S64x256.size a
  h_S64x256 : 0 < S64x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  broadcasts_S1x128_S2000x128 : S1x128.Broadcasts S2000x128
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  concatenates_S512x128_S512x8_S512x136_d1 : Shape.Concatenates [S512x128, S512x8] S512x136 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S5000x32_S32x256_S5000x256_1_0_0_1_n_n_wf : DotDims.WF S5000x32 S32x256 S5000x256 [1] [0] [0] [1] [] []
  scatter_S50000x256_S500000x1_S500000x256_1_0_0_1_wf : ScatterDims.WF S50000x256 S500000x1 S500000x256 [1] [0] [0] 1
  scatter_S50000x1_S500000x1_S500000x1_1_0_0_1_wf : ScatterDims.WF S50000x1 S500000x1 S500000x1 [1] [0] [0] 1
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  dot_S512x64_S64x256_S512x256_1_0_0_1_n_n_wf : DotDims.WF S512x64 S64x256 S512x256 [1] [0] [0] [1] [] []
  scatter_S512x256_S50000x1_S50000x256_1_0_0_1_wf : ScatterDims.WF S512x256 S50000x1 S50000x256 [1] [0] [0] 1
  scatter_S512x1_S50000x1_S50000x1_1_0_0_1_wf : ScatterDims.WF S512x1 S50000x1 S50000x1 [1] [0] [0] 1
  dot_S512x256_S256x256_S512x256_1_0_0_1_n_n_wf : DotDims.WF S512x256 S256x256 S512x256 [1] [0] [0] [1] [] []
  scatter_S512x256_S500000x1_S500000x256_1_0_0_1_wf : ScatterDims.WF S512x256 S500000x1 S500000x256 [1] [0] [0] 1
  scatter_S512x1_S500000x1_S500000x1_1_0_0_1_wf : ScatterDims.WF S512x1 S500000x1 S500000x1 [1] [0] [0] 1
  dot_S5000x256_S256x128_S5000x128_1_0_0_1_n_n_wf : DotDims.WF S5000x256 S256x128 S5000x128 [1] [0] [0] [1] [] []
  scatter_S50000x128_S500000x1_S500000x128_1_0_0_1_wf : ScatterDims.WF S50000x128 S500000x1 S500000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S512x256_S256x128_S512x128_1_0_0_1_n_n_wf : DotDims.WF S512x256 S256x128 S512x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  scatter_S512x128_S500000x1_S500000x128_1_0_0_1_wf : ScatterDims.WF S512x128 S500000x1 S500000x128 [1] [0] [0] 1
  dot_S512x136_S136x256_S512x256_1_0_0_1_n_n_wf : DotDims.WF S512x136 S136x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S500000x32.size a
  hwx0_0 : ∀ i : grid0.Coords, EltTy.bits .f32 = 32 ∨ (Rect.block (s := S500000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S500000x256.size a
  hwx0_3 : ∀ i : grid0.Coords, EltTy.bits .f32 = 32 ∨ (Rect.block (s := S500000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S500000x256.size a
  hwx2_0 : ∀ i : grid2.Coords, EltTy.bits .f32 = 32 ∨ (Rect.block (s := S500000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S500000x128.size a
  hwx2_3 : ∀ i : grid2.Coords, EltTy.bits .f32 = 32 ∨ (Rect.block (s := S500000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)

variable [Facts₀]

def dot_S5000x32_S32x256_S5000x256_1_0_0_1_n_n : DotDims S5000x32 S32x256 S5000x256 where
  lhsContracting := [1]
  rhsContracting := [0]
  lhsNonContracting := [0]
  rhsNonContracting := [1]
  lhsBatch := []
  rhsBatch := []
  wf := dot_S5000x32_S32x256_S5000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def scatter_S512x256_S500000x1_S500000x256_1_0_0_1 : ScatterDims S512x256 S500000x1 S500000x256 where
  updateWindowDims := [1]
  insertedWindowDims := [0]
  scatterDimsToOperandDims := [0]
  indexVectorDim := 1
  wf := scatter_S512x256_S500000x1_S500000x256_1_0_0_1_wf
def scatter_S512x1_S500000x1_S500000x1_1_0_0_1 : ScatterDims S512x1 S500000x1 S500000x1 where
  updateWindowDims := [1]
  insertedWindowDims := [0]
  scatterDimsToOperandDims := [0]
  indexVectorDim := 1
  wf := scatter_S512x1_S500000x1_S500000x1_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def scatter_S512x128_S500000x1_S500000x128_1_0_0_1 : ScatterDims S512x128 S500000x1 S500000x128 where
  updateWindowDims := [1]
  insertedWindowDims := [0]
  scatterDimsToOperandDims := [0]
  indexVectorDim := 1
  wf := scatter_S512x128_S500000x1_S500000x128_1_0_0_1_wf
def dot_S512x136_S136x256_S512x256_1_0_0_1_n_n : DotDims S512x136 S136x256 S512x256 where
  lhsContracting := [1]
  rhsContracting := [0]
  lhsNonContracting := [0]
  rhsNonContracting := [1]
  lhsBatch := []
  rhsBatch := []
  wf := dot_S512x136_S136x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg1) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg20) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg21) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg22) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg23) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x64 : Shape := ⟨2, ![50000, 64]⟩
abbrev S500000x32 : Shape := ⟨2, ![500000, 32]⟩
abbrev S512x64 : Shape := ⟨2, ![512, 64]⟩
abbrev S512x8 : Shape := ⟨2, ![512, 8]⟩
abbrev S500000 : Shape := ⟨1, ![500000]⟩
abbrev S50000 : Shape := ⟨1, ![50000]⟩
abbrev S32x256 : Shape := ⟨2, ![32, 256]⟩
abbrev S256 : Shape := ⟨1, ![256]⟩
abbrev S64x256 : Shape := ⟨2, ![64, 256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S136x256 : Shape := ⟨2, ![136, 256]⟩
abbrev S256x1 : Shape := ⟨2, ![256, 1]⟩
abbrev S1 : Shape := ⟨1, ![1]⟩
abbrev S500000x256 : Shape := ⟨2, ![500000, 256]⟩
abbrev S1x256 : Shape := ⟨2, ![1, 256]⟩
abbrev S_ : Shape := ⟨0, ![]⟩
abbrev S50000x256 : Shape := ⟨2, ![50000, 256]⟩
abbrev S500000x1 : Shape := ⟨2, ![500000, 1]⟩
abbrev S50000x1 : Shape := ⟨2, ![50000, 1]⟩
abbrev S512x256 : Shape := ⟨2, ![512, 256]⟩
abbrev S512x1 : Shape := ⟨2, ![512, 1]⟩
abbrev S500000x128 : Shape := ⟨2, ![500000, 128]⟩
abbrev S1x128 : Shape := ⟨2, ![1, 128]⟩
abbrev S50000x128 : Shape := ⟨2, ![50000, 128]⟩
abbrev S512x128 : Shape := ⟨2, ![512, 128]⟩
abbrev S512x136 : Shape := ⟨2, ![512, 136]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S50000x64, .f32⟩
  | 1 => ⟨S500000x32, .f32⟩
  | 2 => ⟨S512x64, .f32⟩
  | 3 => ⟨S512x8, .f32⟩
  | 4 => ⟨S500000, .i32⟩
  | 5 => ⟨S500000, .i32⟩
  | 6 => ⟨S50000, .i32⟩
  | 7 => ⟨S500000, .i32⟩
  | 8 => ⟨S32x256, .f32⟩
  | 9 => ⟨S256, .f32⟩
  | 10 => ⟨S64x256, .f32⟩
  | 11 => ⟨S256x256, .f32⟩
  | 12 => ⟨S256x256, .f32⟩
  | 13 => ⟨S256, .f32⟩
  | 14 => ⟨S64x256, .f32⟩
  | 15 => ⟨S256x256, .f32⟩
  | 16 => ⟨S256x256, .f32⟩
  | 17 => ⟨S256, .f32⟩
  | 18 => ⟨S256x128, .f32⟩
  | 19 => ⟨S128, .f32⟩
  | 20 => ⟨S256x128, .f32⟩
  | 21 => ⟨S128x128, .f32⟩
  | 22 => ⟨S128x128, .f32⟩
  | 23 => ⟨S128, .f32⟩
  | 24 => ⟨S256x128, .f32⟩
  | 25 => ⟨S128x128, .f32⟩
  | 26 => ⟨S128x128, .f32⟩
  | 27 => ⟨S128, .f32⟩
  | 28 => ⟨S128x128, .f32⟩
  | 29 => ⟨S128, .f32⟩
  | 30 => ⟨S136x256, .f32⟩
  | 31 => ⟨S256, .f32⟩
  | 32 => ⟨S256x256, .f32⟩
  | 33 => ⟨S256, .f32⟩
  | 34 => ⟨S256x1, .f32⟩
  | 35 => ⟨S1, .f32⟩
  | 36 => ⟨S500000x256, .f32⟩
  | 37 => ⟨S1x256, .f32⟩
  | 38 => ⟨S500000x256, .f32⟩
  | 39 => ⟨S500000x256, .f32⟩
  | 40 => ⟨S_, .f32⟩
  | 41 => ⟨S500000x256, .f32⟩
  | 42 => ⟨S500000x256, .f32⟩
  | 43 => ⟨S_, .f32⟩
  | 44 => ⟨S50000x256, .f32⟩
  | 45 => ⟨S500000x1, .i32⟩
  | 46 => ⟨S50000x256, .f32⟩
  | 47 => ⟨S_, .f32⟩
  | 48 => ⟨S500000x1, .f32⟩
  | 49 => ⟨S_, .f32⟩
  | 50 => ⟨S50000x1, .f32⟩
  | 51 => ⟨S500000x1, .i32⟩
  | 52 => ⟨S50000x1, .f32⟩
  | 53 => ⟨S_, .f32⟩
  | 54 => ⟨S50000x1, .f32⟩
  | 55 => ⟨S50000x1, .f32⟩
  | 56 => ⟨S50000x256, .f32⟩
  | 57 => ⟨S50000x256, .f32⟩
  | 58 => ⟨S_, .f32⟩
  | 59 => ⟨S50000x256, .f32⟩
  | 60 => ⟨S500000x1, .i32⟩
  | 61 => ⟨S50000x256, .f32⟩
  | 62 => ⟨S_, .f32⟩
  | 63 => ⟨S500000x1, .f32⟩
  | 64 => ⟨S_, .f32⟩
  | 65 => ⟨S50000x1, .f32⟩
  | 66 => ⟨S500000x1, .i32⟩
  | 67 => ⟨S50000x1, .f32⟩
  | 68 => ⟨S_, .f32⟩
  | 69 => ⟨S50000x1, .f32⟩
  | 70 => ⟨S50000x1, .f32⟩
  | 71 => ⟨S50000x256, .f32⟩
  | 72 => ⟨S50000x256, .f32⟩
  | 73 => ⟨S50000x256, .f32⟩
  | 74 => ⟨S50000x256, .f32⟩
  | 75 => ⟨S50000x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S512x256, .f32⟩
  | 85 => ⟨S_, .f32⟩
  | 86 => ⟨S512x256, .f32⟩
  | 87 => ⟨S50000x1, .i32⟩
  | 88 => ⟨S512x256, .f32⟩
  | 89 => ⟨S_, .f32⟩
  | 90 => ⟨S50000x1, .f32⟩
  | 91 => ⟨S_, .f32⟩
  | 92 => ⟨S512x1, .f32⟩
  | 93 => ⟨S50000x1, .i32⟩
  | 94 => ⟨S512x1, .f32⟩
  | 95 => ⟨S_, .f32⟩
  | 96 => ⟨S512x1, .f32⟩
  | 97 => ⟨S512x1, .f32⟩
  | 98 => ⟨S512x256, .f32⟩
  | 99 => ⟨S512x256, .f32⟩
  | 100 => ⟨S512x256, .f32⟩
  | 101 => ⟨S512x256, .f32⟩
  | 102 => ⟨S_, .f32⟩
  | 103 => ⟨S512x256, .f32⟩
  | 104 => ⟨S500000x1, .i32⟩
  | 105 => ⟨S512x256, .f32⟩
  | 106 => ⟨S_, .f32⟩
  | 107 => ⟨S500000x1, .f32⟩
  | 108 => ⟨S_, .f32⟩
  | 109 => ⟨S512x1, .f32⟩
  | 110 => ⟨S500000x1, .i32⟩
  | 111 => ⟨S512x1, .f32⟩
  | 112 => ⟨S_, .f32⟩
  | 113 => ⟨S512x1, .f32⟩
  | 114 => ⟨S512x1, .f32⟩
  | 115 => ⟨S512x256, .f32⟩
  | 116 => ⟨S512x256, .f32⟩
  | 117 => ⟨S512x256, .f32⟩
  | 118 => ⟨S512x256, .f32⟩
  | 119 => ⟨S1x256, .f32⟩
  | 120 => ⟨S512x256, .f32⟩
  | 121 => ⟨S512x256, .f32⟩
  | 122 => ⟨S_, .f32⟩
  | 123 => ⟨S512x256, .f32⟩
  | 124 => ⟨S512x256, .f32⟩
  | 125 => ⟨S500000x128, .f32⟩
  | 126 => ⟨S1x128, .f32⟩
  | 127 => ⟨S500000x128, .f32⟩
  | _ => ⟨S50000x64, .f32⟩

abbrev hbmTy0_1 (i : Nat) : BufTy := match i % 128 with
  | 0 => ⟨S500000x128, .f32⟩
  | 1 => ⟨S_, .f32⟩
  | 2 => ⟨S500000x128, .f32⟩
  | 3 => ⟨S500000x128, .f32⟩
  | 4 => ⟨S_, .f32⟩
  | 5 => ⟨S50000x128, .f32⟩
  | 6 => ⟨S500000x1, .i32⟩
  | 7 => ⟨S50000x128, .f32⟩
  | 8 => ⟨S_, .f32⟩
  | 9 => ⟨S500000x1, .f32⟩
  | 10 => ⟨S_, .f32⟩
  | 11 => ⟨S50000x1, .f32⟩
  | 12 => ⟨S500000x1, .i32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S_, .f32⟩
  | 20 => ⟨S50000x128, .f32⟩
  | 21 => ⟨S500000x1, .i32⟩
  | 22 => ⟨S50000x128, .f32⟩
  | 23 => ⟨S_, .f32⟩
  | 24 => ⟨S500000x1, .f32⟩
  | 25 => ⟨S_, .f32⟩
  | 26 => ⟨S50000x1, .f32⟩
  | 27 => ⟨S500000x1, .i32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S50000x128, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S512x128, .f32⟩
  | 46 => ⟨S_, .f32⟩
  | 47 => ⟨S512x128, .f32⟩
  | 48 => ⟨S50000x1, .i32⟩
  | 49 => ⟨S512x128, .f32⟩
  | 50 => ⟨S_, .f32⟩
  | 51 => ⟨S50000x1, .f32⟩
  | 52 => ⟨S_, .f32⟩
  | 53 => ⟨S512x1, .f32⟩
  | 54 => ⟨S50000x1, .i32⟩
  | 55 => ⟨S512x1, .f32⟩
  | 56 => ⟨S_, .f32⟩
  | 57 => ⟨S512x1, .f32⟩
  | 58 => ⟨S512x1, .f32⟩
  | 59 => ⟨S512x128, .f32⟩
  | 60 => ⟨S512x128, .f32⟩
  | 61 => ⟨S512x128, .f32⟩
  | 62 => ⟨S512x128, .f32⟩
  | 63 => ⟨S_, .f32⟩
  | 64 => ⟨S512x128, .f32⟩
  | 65 => ⟨S500000x1, .i32⟩
  | 66 => ⟨S512x128, .f32⟩
  | 67 => ⟨S_, .f32⟩
  | 68 => ⟨S500000x1, .f32⟩
  | 69 => ⟨S_, .f32⟩
  | 70 => ⟨S512x1, .f32⟩
  | 71 => ⟨S500000x1, .i32⟩
  | 72 => ⟨S512x1, .f32⟩
  | 73 => ⟨S_, .f32⟩
  | 74 => ⟨S512x1, .f32⟩
  | 75 => ⟨S512x1, .f32⟩
  | 76 => ⟨S512x128, .f32⟩
  | 77 => ⟨S512x128, .f32⟩
  | 78 => ⟨S512x128, .f32⟩
  | 79 => ⟨S512x128, .f32⟩
  | 80 => ⟨S1x128, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S1x128, .f32⟩
  | 88 => ⟨S512x128, .f32⟩
  | 89 => ⟨S512x128, .f32⟩
  | 90 => ⟨S512x136, .f32⟩
  | 91 => ⟨S512x256, .f32⟩
  | 92 => ⟨S1x256, .f32⟩
  | 93 => ⟨S512x256, .f32⟩
  | 94 => ⟨S512x256, .f32⟩
  | 95 => ⟨S_, .f32⟩
  | 96 => ⟨S512x256, .f32⟩
  | 97 => ⟨S512x256, .f32⟩
  | 98 => ⟨S512x256, .f32⟩
  | 99 => ⟨S1x256, .f32⟩
  | 100 => ⟨S512x256, .f32⟩
  | 101 => ⟨S512x256, .f32⟩
  | 102 => ⟨S_, .f32⟩
  | 103 => ⟨S512x256, .f32⟩
  | 104 => ⟨S512x256, .f32⟩
  | 105 => ⟨S512x1, .f32⟩
  | 106 => ⟨S1x1, .f32⟩
  | 107 => ⟨S512x1, .f32⟩
  | 108 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_call0_cst : Ref sig .tc := ⟨.hbm, 40, rfl⟩
abbrev main_call0_v0 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_0 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_2 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_3 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_4 : Ref sig .tc := ⟨.hbm, 62, rfl⟩
abbrev main_v19 : Ref sig .tc := ⟨.hbm, 63, rfl⟩
abbrev main_cst_5 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_6 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call1_cst : Ref sig .tc := ⟨.hbm, 81, rfl⟩
abbrev main_call1_v0 : Ref sig .tc := ⟨.hbm, 82, rfl⟩
abbrev main_v35 : Ref sig .tc := ⟨.hbm, 83, rfl⟩
abbrev main_v36 : Ref sig .tc := ⟨.hbm, 84, rfl⟩
abbrev main_cst_7 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_8 : Ref sig .tc := ⟨.hbm, 89, rfl⟩
abbrev main_v40 : Ref sig .tc := ⟨.hbm, 90, rfl⟩
abbrev main_cst_9 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_10 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_11 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_12 : Ref sig .tc := ⟨.hbm, 106, rfl⟩
abbrev main_v53 : Ref sig .tc := ⟨.hbm, 107, rfl⟩
abbrev main_cst_13 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_14 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_call2_cst : Ref sig .tc := ⟨.hbm, 122, rfl⟩
abbrev main_call2_v0 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call3_cst : Ref sig .tc := ⟨.hbm, 129, rfl⟩
abbrev main_call3_v0 : Ref sig .tc := ⟨.hbm, 130, rfl⟩
abbrev main_v71 : Ref sig .tc := ⟨.hbm, 131, rfl⟩
abbrev main_cst_15 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_16 : Ref sig .tc := ⟨.hbm, 136, rfl⟩
abbrev main_v75 : Ref sig .tc := ⟨.hbm, 137, rfl⟩
abbrev main_cst_17 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_18 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_cst_19 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_20 : Ref sig .tc := ⟨.hbm, 151, rfl⟩
abbrev main_v86 : Ref sig .tc := ⟨.hbm, 152, rfl⟩
abbrev main_cst_21 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_22 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_call4_cst : Ref sig .tc := ⟨.hbm, 170, rfl⟩
abbrev main_call4_v0 : Ref sig .tc := ⟨.hbm, 171, rfl⟩
abbrev main_v102 : Ref sig .tc := ⟨.hbm, 172, rfl⟩
abbrev main_v103 : Ref sig .tc := ⟨.hbm, 173, rfl⟩
abbrev main_cst_23 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_cst_24 : Ref sig .tc := ⟨.hbm, 178, rfl⟩
abbrev main_v107 : Ref sig .tc := ⟨.hbm, 179, rfl⟩
abbrev main_cst_25 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_cst_26 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_cst_27 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_cst_28 : Ref sig .tc := ⟨.hbm, 195, rfl⟩
abbrev main_v120 : Ref sig .tc := ⟨.hbm, 196, rfl⟩
abbrev main_cst_29 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_30 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_call5_cst : Ref sig .tc := ⟨.hbm, 211, rfl⟩
abbrev main_call5_v0 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_call6_cst : Ref sig .tc := ⟨.hbm, 223, rfl⟩
abbrev main_call6_v0 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_call7_cst : Ref sig .tc := ⟨.hbm, 230, rfl⟩
abbrev main_call7_v0 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  concatenates_S512x128_S512x8_S512x136_d1 : Shape.Concatenates [S512x128, S512x8] S512x136 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S500000x32_S32x256_S500000x256_1_0_0_1_n_n_wf : DotDims.WF S500000x32 S32x256 S500000x256 [1] [0] [0] [1] [] []
  scatter_S50000x256_S500000x1_S500000x256_1_0_0_1_wf : ScatterDims.WF S50000x256 S500000x1 S500000x256 [1] [0] [0] 1
  scatter_S50000x1_S500000x1_S500000x1_1_0_0_1_wf : ScatterDims.WF S50000x1 S500000x1 S500000x1 [1] [0] [0] 1
  dot_S50000x64_S64x256_S50000x256_1_0_0_1_n_n_wf : DotDims.WF S50000x64 S64x256 S50000x256 [1] [0] [0] [1] [] []
  dot_S50000x256_S256x256_S50000x256_1_0_0_1_n_n_wf : DotDims.WF S50000x256 S256x256 S50000x256 [1] [0] [0] [1] [] []
  dot_S512x64_S64x256_S512x256_1_0_0_1_n_n_wf : DotDims.WF S512x64 S64x256 S512x256 [1] [0] [0] [1] [] []
  scatter_S512x256_S50000x1_S50000x256_1_0_0_1_wf : ScatterDims.WF S512x256 S50000x1 S50000x256 [1] [0] [0] 1
  scatter_S512x1_S50000x1_S50000x1_1_0_0_1_wf : ScatterDims.WF S512x1 S50000x1 S50000x1 [1] [0] [0] 1
  dot_S512x256_S256x256_S512x256_1_0_0_1_n_n_wf : DotDims.WF S512x256 S256x256 S512x256 [1] [0] [0] [1] [] []
  scatter_S512x256_S500000x1_S500000x256_1_0_0_1_wf : ScatterDims.WF S512x256 S500000x1 S500000x256 [1] [0] [0] 1
  scatter_S512x1_S500000x1_S500000x1_1_0_0_1_wf : ScatterDims.WF S512x1 S500000x1 S500000x1 [1] [0] [0] 1
  dot_S500000x256_S256x128_S500000x128_1_0_0_1_n_n_wf : DotDims.WF S500000x256 S256x128 S500000x128 [1] [0] [0] [1] [] []
  scatter_S50000x128_S500000x1_S500000x128_1_0_0_1_wf : ScatterDims.WF S50000x128 S500000x1 S500000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S512x256_S256x128_S512x128_1_0_0_1_n_n_wf : DotDims.WF S512x256 S256x128 S512x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  scatter_S512x128_S500000x1_S500000x128_1_0_0_1_wf : ScatterDims.WF S512x128 S500000x1 S500000x128 [1] [0] [0] 1
  dot_S512x136_S136x256_S512x256_1_0_0_1_n_n_wf : DotDims.WF S512x136 S136x256 S512x256 [1] [0] [0] [1] [] []
  dot_S512x256_S256x1_S512x1_1_0_0_1_n_n_wf : DotDims.WF S512x256 S256x1 S512x1 [1] [0] [0] [1] [] []

variable [Facts₀]

def dot_S500000x32_S32x256_S500000x256_1_0_0_1_n_n : DotDims S500000x32 S32x256 S500000x256 where
  lhsContracting := [1]
  rhsContracting := [0]
  lhsNonContracting := [0]
  rhsNonContracting := [1]
  lhsBatch := []
  rhsBatch := []
  wf := dot_S500000x32_S32x256_S500000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def scatter_S512x256_S500000x1_S500000x256_1_0_0_1 : ScatterDims S512x256 S500000x1 S500000x256 where
  updateWindowDims := [1]
  insertedWindowDims := [0]
  scatterDimsToOperandDims := [0]
  indexVectorDim := 1
  wf := scatter_S512x256_S500000x1_S500000x256_1_0_0_1_wf
def scatter_S512x1_S500000x1_S500000x1_1_0_0_1 : ScatterDims S512x1 S500000x1 S500000x1 where
  updateWindowDims := [1]
  insertedWindowDims := [0]
  scatterDimsToOperandDims := [0]
  indexVectorDim := 1
  wf := scatter_S512x1_S500000x1_S500000x1_1_0_0_1_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def scatter_S512x128_S500000x1_S500000x128_1_0_0_1 : ScatterDims S512x128 S500000x1 S500000x128 where
  updateWindowDims := [1]
  insertedWindowDims := [0]
  scatterDimsToOperandDims := [0]
  indexVectorDim := 1
  wf := scatter_S512x128_S500000x1_S500000x128_1_0_0_1_wf
def dot_S512x136_S136x256_S512x256_1_0_0_1_n_n : DotDims S512x136 S136x256 S512x256 where
  lhsContracting := [1]
  rhsContracting := [0]
  lhsNonContracting := [0]
  rhsNonContracting := [1]
  lhsBatch := []
  rhsBatch := []
  wf := dot_S512x136_S136x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KernelRun.lean ====
/-
  The idealized kernel's run with its result named.

  The program is fifteen segments in a row: four tiled regions and eleven stretches of array operations between and after
  them. Every weakly fair execution passes through them in order, and at each boundary every unscoped buffer of the core
  holds a known array: the launch contents, then after a stretch the stretch's operations applied to what it found, and
  after a region each of its arrays at what the region's write-backs leave and every other buffer as it was. The last of
  these valuations is read at the result buffer and at the thirty-six argument buffers: the result holds the last
  valuation's array there, and each argument holds what it held at launch, because no segment writes it.
-/
import proofs.«124187_j10651518894533_2_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates without a fault; the result buffer ends at
    the last boundary's array for it, and every argument array ends as launched. -/
theorem run_result : θ_run defs (onTc (τ := τ) (main (F := F))) ⟨m, fun _ => 0, ρ⟩ (fun r => ∀ c : Dev nD,
      r.2.mem ((c.tc : Thread nD τ).loc main_v128) = W15 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v128 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c),
       (h c _ (mem_uc main_arg26 (by decide))).trans (W15_main_arg26 m ρ c),
       (h c _ (mem_uc main_arg27 (by decide))).trans (W15_main_arg27 m ρ c),
       (h c _ (mem_uc main_arg28 (by decide))).trans (W15_main_arg28 m ρ c),
       (h c _ (mem_uc main_arg29 (by decide))).trans (W15_main_arg29 m ρ c),
       (h c _ (mem_uc main_arg30 (by decide))).trans (W15_main_arg30 m ρ c),
       (h c _ (mem_uc main_arg31 (by decide))).trans (W15_main_arg31 m ρ c),
       (h c _ (mem_uc main_arg32 (by decide))).trans (W15_main_arg32 m ρ c),
       (h c _ (mem_uc main_arg33 (by decide))).trans (W15_main_arg33 m ρ c),
       (h c _ (mem_uc main_arg34 (by decide))).trans (W15_main_arg34 m ρ c),
       (h c _ (mem_uc main_arg35 (by decide))).trans (W15_main_arg35 m ρ c)⟩)

end Cert.KernelIdeal.Valued

end
-- ==== Proof.Carry.lean ====
/-
  What each segment leaves alone.

  A stretch of array operations writes a fixed list of buffers and nothing else; a tiled region changes its own arrays
  and nothing else. So a buffer outside a segment's list holds after the segment what it held before it, and an argument
  array, which no segment writes, holds at every boundary what it held at launch.
-/
import proofs.«124187_j10651518894533_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]

/-- The buffers the stretch `hostOps1` writes. -/
def written1 : List (Ref sig .tc) := [main_cst, main_v1, main_v2, main_v3, main_cst_0, main_v4, main_cst_1, main_v5, main_v6, main_v7, main_cst_2, main_v8, main_v9, main_v10, main_v11, main_cst_3, main_v12, main_v13, main_v14, main_cst_4, main_v15, main_cst_5, main_v16, main_v17, main_v18, main_cst_6, main_v19, main_v20, main_v21, main_v22]

/-- The stretch leaves every buffer it does not write as it found it. -/
theorem host1_keeps (W : Valuation τ sig (Elt F)) (b : Ref sig .tc) (hb : b ∉ written1) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The buffers the stretch `hostOps2` writes. -/
def written2 : List (Ref sig .tc) := [main_v24, main_cst_7, main_v25, main_v26, main_v27, main_cst_8, main_v28, main_cst_9, main_v29, main_v30, main_v31, main_cst_10, main_v32, main_v33, main_v34, main_v35, main_v36, main_v37, main_cst_11, main_v38, main_v39, main_v40, main_cst_12, main_v41, main_cst_13, main_v42, main_v43, main_v44, main_cst_14, main_v45, main_v46, main_v47, main_v48, main_v49, main_v50, main_v51, main_v52, main_v53]

/-- The stretch leaves every buffer it does not write as it found it. -/
theorem host2_keeps (W : Valuation τ sig (Elt F)) (b : Ref sig .tc) (hb : b ∉ written2) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The buffers the stretch `hostOps2_1` writes. -/
def written2b : List (Ref sig .tc) := [main_call0_cst, main_call0_v0, main_v54]

/-- The stretch leaves every buffer it does not write as it found it. -/
theorem host2b_keeps (W : Valuation τ sig (Elt F)) (b : Ref sig .tc) (hb : b ∉ written2b) :
    StableHlo.after (hostOps2_1 (F := F)) W (Proc.devRef .tc b) = W (Proc.devRef .tc b) :=
  StableHlo.after_of_forall_not_mem (b := Proc.devRef .tc b) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

/-- The buffers the stretch `hostOps3` writes. -/
def written3 : List (Ref sig .tc) := [main_cst_15, main_v56, main_v57, main_v58, main_cst_16, main_v59, main_cst_17, main_v60, main_v61, main_v62, main_cst_18, main_v63, main_v64, main_v65, main_v66, main_cst_19, main_v67, main_v68, main_v69, main_cst_20, main_v70, main_cst_21, main_v71, main_v72, main_v73, main_cst_22, main_v74, main_v75, main_v76, main_v77]

/-- The stretch leaves every buffer it does not write as it found it. -/
theorem host3_keeps (W : Valuation τ sig (Elt F)) (b : Ref sig .tc) (hb : b ∉ written3) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; exact hb (by decide))))

variable (m : (ℓ : Loc nD τ sig) → Buf (Elt F) ℓ) (ρ : Dev nD → PrngReg) (c : Dev nD)

/-- Across the first region: a buffer that is none of its arrays holds its launch contents. -/
theorem at_W1 (b : Ref sig .tc) (h0 : ∀ w, Pipeline.arrRef spec0 w ≠ b) :
    W1 m ρ c (Proc.devRef .tc b) = m ((c : Thread nD τ).loc b) := W1_of_ne m ρ c b h0

theorem step_h1 (b : Ref sig .tc) (h : b ∉ written1) : W2 m ρ c (Proc.devRef .tc b) = W1 m ρ c (Proc.devRef .tc b) :=
  host1_keeps (W1 m ρ c) b h

theorem step_r1 (b : Ref sig .tc) (h : ∀ w, Pipeline.arrRef spec1 w ≠ b) :
    W3 m ρ c (Proc.devRef .tc b) = W2 m ρ c (Proc.devRef .tc b) := W3_of_ne m ρ c b h

theorem step_h2 (b : Ref sig .tc) (h : b ∉ written2) (h' : b ∉ written2b) :
    W5 m ρ c (Proc.devRef .tc b) = W3 m ρ c (Proc.devRef .tc b) :=
  (host2b_keeps (W4 m ρ c) b h').trans (host2_keeps (W3 m ρ c) b h)

theorem step_r2 (b : Ref sig .tc) (h : ∀ w, Pipeline.arrRef spec2 w ≠ b) :
    W6 m ρ c (Proc.devRef .tc b) = W5 m ρ c (Proc.devRef .tc b) := W6_of_ne m ρ c b h

theorem step_h3 (b : Ref sig .tc) (h : b ∉ written3) : W7 m ρ c (Proc.devRef .tc b) = W6 m ρ c (Proc.devRef .tc b) :=
  host3_keeps (W6 m ρ c) b h

theorem step_r3 (b : Ref sig .tc) (h : ∀ w, Pipeline.arrRef spec3 w ≠ b) :
    W8 m ρ c (Proc.devRef .tc b) = W7 m ρ c (Proc.devRef .tc b) := W8_of_ne m ρ c b h

/-- A buffer no segment up to a boundary writes holds its launch contents at that boundary. -/
theorem at_W2 (b : Ref sig .tc) (h0 : ∀ w, Pipeline.arrRef spec0 w ≠ b) (h1 : b ∉ written1) :
    W2 m ρ c (Proc.devRef .tc b) = m ((c : Thread nD τ).loc b) := (step_h1 m ρ c b h1).trans (at_W1 m ρ c b h0)

theorem at_W3 (b : Ref sig .tc) (h0 : ∀ w, Pipeline.arrRef spec0 w ≠ b) (h1 : b ∉ written1)
    (h2 : ∀ w, Pipeline.arrRef spec1 w ≠ b) :
    W3 m ρ c (Proc.devRef .tc b) = m ((c : Thread nD τ).loc b) := (step_r1 m ρ c b h2).trans (at_W2 m ρ c b h0 h1)

theorem at_W5 (b : Ref sig .tc) (h0 : ∀ w, Pipeline.arrRef spec0 w ≠ b) (h1 : b ∉ written1)
    (h2 : ∀ w, Pipeline.arrRef spec1 w ≠ b) (h3 : b ∉ written2) (h3' : b ∉ written2b) :
    W5 m ρ c (Proc.devRef .tc b) = m ((c : Thread nD τ).loc b) := (step_h2 m ρ c b h3 h3').trans (at_W3 m ρ c b h0 h1 h2)

theorem at_W6 (b : Ref sig .tc) (h0 : ∀ w, Pipeline.arrRef spec0 w ≠ b) (h1 : b ∉ written1)
    (h2 : ∀ w, Pipeline.arrRef spec1 w ≠ b) (h3 : b ∉ written2) (h3' : b ∉ written2b) (h4 : ∀ w, Pipeline.arrRef spec2 w ≠ b) :
    W6 m ρ c (Proc.devRef .tc b) = m ((c : Thread nD τ).loc b) := (step_r2 m ρ c b h4).trans (at_W5 m ρ c b h0 h1 h2 h3 h3')

theorem at_W7 (b : Ref sig .tc) (h0 : ∀ w, Pipeline.arrRef spec0 w ≠ b) (h1 : b ∉ written1)
    (h2 : ∀ w, Pipeline.arrRef spec1 w ≠ b) (h3 : b ∉ written2) (h3' : b ∉ written2b) (h4 : ∀ w, Pipeline.arrRef spec2 w ≠ b)
    (h5 : b ∉ written3) :
    W7 m ρ c (Proc.devRef .tc b) = m ((c : Thread nD τ).loc b) := (step_h3 m ρ c b h5).trans (at_W6 m ρ c b h0 h1 h2 h3 h3' h4)

theorem at_W8 (b : Ref sig .tc) (h0 : ∀ w, Pipeline.arrRef spec0 w ≠ b) (h1 : b ∉ written1)
    (h2 : ∀ w, Pipeline.arrRef spec1 w ≠ b) (h3 : b ∉ written2) (h3' : b ∉ written2b) (h4 : ∀ w, Pipeline.arrRef spec2 w ≠ b)
    (h5 : b ∉ written3) (h6 : ∀ w, Pipeline.arrRef spec3 w ≠ b) :
    W8 m ρ c (Proc.devRef .tc b) = m ((c : Thread nD τ).loc b) := (step_r3 m ρ c b h6).trans (at_W7 m ρ c b h0 h1 h2 h3 h3' h4 h5)

end Cert.KernelIdeal.Carry

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibRowLayers.lean ====
/-
  Dense layers followed by a rectifier, read as functions of rows on the extended reals.

  A layer with one factor sends a matrix x [M, K], a weight w [K, N] and a bias b [N] to the matrix whose entry
  (p, f) is max (sum over d of x (p, d) * w (d, f) + b f, 0): entry (p, f) depends on row p of x only. A layer with three
  factors adds three such inner products, ((x1.w1 + x2.w2) + x3.w3) + b, in that order of additions, before the
  rectifier. Each is stated twice: in the form a vector unit computes it (operands narrowed to bf16 first, which changes
  nothing on the extended reals; a matrix product into a zero accumulator; the bias recast to a row and spread over the
  rows; the maximum with a spread scalar zero) and in the form of the host's array operations (dot_general; the bias
  placed on axis 1 of [1, N] and spread over [M, N]; the maximum with a spread rank-0 zero). No law of arithmetic is
  needed: both forms are the same tree of sums, products and maxima at every index.
-/
import Idealize.ShloMosaic.PureOps.Ideal.Laws
import Idealize.ShloMosaic.Lib.ValueIdx
import Idealize.ShloMosaic.Lib.ValueLayout
import Idealize.ShloMosaic.Lib.Pipeline.Value
import proofs.«124187_j10651518894533_2_alg».proof.Proof.LibInnerProducts
import proofs.«124187_j10651518894533_2_alg».proof.Proof.LibInDimRow

noncomputable section

namespace Cert.LibRowLayers

open Idealize.ShloMosaic Idealize.ShloMosaic.ValueIdx Idealize.ShloMosaic.InnerProducts
open scoped BigOperators

/-- Row p of x against column f of w: the sum over d of x (p, d) * w (d, f). -/
def inner {M K N : ℕ} (x : FVec Ideal ⟨2, ![M, K]⟩ .f32) (w : FVec Ideal ⟨2, ![K, N]⟩ .f32) (p : Fin M) (f : Fin N) : EReal :=
  ∑ d : Fin K, x (ix2 p d) * w (ix2 d f)

/-- The one-factor layer: entry (p, f) is max (x_p . w_f + b f, 0). -/
def layer1 {M K N : ℕ} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => max (inner x w (i 0) (i 1) + b (ix1 (i 1))) (Ideal.ofBits .f32 0x00000000#32)

/-- The three-factor layer: entry (p, f) is max (((x1_p . w1_f + x2_p . w2_f) + x3_p . w3_f) + b f, 0). -/
def layer3 {M K1 K2 K3 N : ℕ} (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) : FVec Ideal ⟨2, ![M, N]⟩ .f32 :=
  fun i => max (((inner x1 w1 (i 0) (i 1) + inner x2 w2 (i 0) (i 1)) + inner x3 w3 (i 0) (i 1)) + b (ix1 (i 1)))
    (Ideal.ofBits .f32 0x00000000#32)

/-- A matrix product of bf16-narrowed operands into the zero accumulator, at (p, f), is the inner product. -/
theorem narrowed_matmul_apply {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (hn : FTy.bf16.bits < FTy.f32.bits)
    (p : Fin M) (f : Fin N) :
    matmul D prec (truncf .bf16 x hn) (truncf .bf16 w hn) (constant (F := Ideal) ⟨2, ![M, N]⟩ .f32 0x00000000#32) (ix2 p f)
      = inner x w p f :=
  matmul_zero_apply D hD prec (truncf .bf16 x hn) (truncf .bf16 w hn) p f

/-- The bias as the vector unit spreads it: recast [N] to [1, N], then spread over [M, N]. -/
theorem row_bias_apply {M N : ℕ} (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (f : Fin N) :
    broadcastTo ⟨2, ![M, N]⟩ (shapeCast ⟨2, ![1, N]⟩ b hc) hb (ix2 p f) = b (ix1 f) := by
  rw [broadcastTo_1b_ab_apply _ hb p f, shapeCast_a_1a_apply b hc 0 f]

/-- The bias as the host spreads it: placed on axis 1 of [1, N], then spread over [M, N]. -/
theorem host_bias_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (f : Fin N) :
    broadcastInDim ⟨2, ![M, N]⟩ ![0, 1] h2 (broadcastInDim ⟨2, ![1, N]⟩ ![1] h1 b) (ix2 p f) = b (ix1 f) := by
  rw [Cert.LibInDimRow.inDim_1b_ab_apply _ h2 p f, Cert.LibInDimRow.inDim_b_1b_apply b h1 0 f]

/-- A rank-0 value spread over a matrix reads that value everywhere. -/
theorem host_scalar_apply {M N : ℕ} (v : FVec Ideal ⟨0, ![]⟩ .f32)
    (h0 : (⟨0, ![]⟩ : Shape).BroadcastsInDim ⟨2, ![M, N]⟩ ![]) (i : (⟨2, ![M, N]⟩ : Shape).Idx) :
    broadcastInDim ⟨2, ![M, N]⟩ ![] h0 v i = v ix0 :=
  broadcastInDim_apply _ h0 v i ix0 fun ax => ax.elim0

/-- The one-factor layer as a vector unit computes it. -/
theorem unit_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (matmul D prec (truncf .bf16 x hn) (truncf .bf16 w hn) (constant (F := Ideal) ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
    = layer1 x w b := by
  funext i
  obtain ⟨p, f, rfl⟩ : ∃ (p : Fin M) (f : Fin N), i = ix2 p f := ⟨i 0, i 1, eq_ix2 i⟩
  rw [maximumf_apply, addf_apply, narrowed_matmul_apply D hD prec x w hn p f, row_bias_apply b hc hb p f, broadcast_apply]
  rfl

/-- The one-factor layer as the host's array operations compute it. -/
theorem host_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral D prec x w) (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer1 x w b := by
  funext i
  obtain ⟨p, f, rfl⟩ : ∃ (p : Fin M) (f : Fin N), i = ix2 p f := ⟨i 0, i 1, eq_ix2 i⟩
  rw [maximumf_apply, addf_apply, dotGeneral_apply D hD prec x w p f, host_bias_apply b h1 h2 p f, host_scalar_apply _ h0]
  rfl

/-- The three-factor layer as a vector unit computes it. -/
theorem unit_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (addf (addf
          (matmul D1 prec (truncf .bf16 x1 hn) (truncf .bf16 w1 hn) (constant (F := Ideal) ⟨2, ![M, N]⟩ .f32 0x00000000#32))
          (matmul D2 prec (truncf .bf16 x2 hn) (truncf .bf16 w2 hn) (constant (F := Ideal) ⟨2, ![M, N]⟩ .f32 0x00000000#32)))
          (matmul D3 prec (truncf .bf16 x3 hn) (truncf .bf16 w3 hn) (constant (F := Ideal) ⟨2, ![M, N]⟩ .f32 0x00000000#32)))
        (broadcastTo ⟨2, ![M, N]⟩ (shapeCast ⟨2, ![1, N]⟩ b hc) hb))
      (broadcast ⟨2, ![M, N]⟩ (Scalar.ofBits (F := Ideal) .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, narrowed_matmul_apply D1 hD1 prec x1 w1 hn p f,
    narrowed_matmul_apply D2 hD2 prec x2 w2 hn p f, narrowed_matmul_apply D3 hD3 prec x3 w3 hn p f,
    row_bias_apply b hc hb p f, broadcast_apply]
  rfl

/-- The three-factor layer as the host's array operations compute it. -/
theorem host_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (addf (Host.dotGeneral D1 prec x1 w1) (Host.dotGeneral D2 prec x2 w2)) (Host.dotGeneral D3 prec x3 w3))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, dotGeneral_apply D1 hD1 prec x1 w1 p f,
    dotGeneral_apply D2 hD2 prec x2 w2 p f, dotGeneral_apply D3 hD3 prec x3 w3 p f,
    host_bias_apply b h1 h2 p f, host_scalar_apply _ h0]
  rfl

end Cert.LibRowLayers

end
-- ==== Proof.EdgeLayer1.lean ====
/-
  The first edge layer's region: its output array as one function of the arrays it reads.

  The region walks 100 blocks of 5000 rows. At block t the body sees rows t*5000 .. t*5000+4999 of the [500000, 32] input, the whole
  [32, 256] weight and the whole [256] bias, and writes rows t*5000 .. t*5000+4999 of the [500000, 256] output. An entry of the one-factor
  layer depends on one row of the input only, so what block t writes is block t of the layer of the whole arrays; the 100
  blocks tile the rows (row r lies in block r / 5000), so after the region the output array is the layer of the whole arrays.
-/
import proofs.«124187_j10651518894533_2_alg».proof.Proof.Gen.KernelIdeal.Frame
import proofs.«124187_j10651518894533_2_alg».proof.Proof.LibRowLayers
import Idealize.ShloMosaic.Lib.Pipeline.Value

set_option maxRecDepth 16384

noncomputable section

namespace Cert.KernelIdeal.EdgeLayer1

open Cert.KernelIdeal Cert.KernelIdeal.Gen Cert.LibRowLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer of whole arrays: entry (p, f) is max (x_p . w_f + b f, 0). -/
abbrev whole (x : S500000x32.Idx → Elt Ideal .f32) (w : S32x256.Idx → Elt Ideal .f32) (b : S256.Idx → Elt Ideal .f32) :
    S500000x256.Idx → Elt Ideal .f32 := layer1 (M := 500000) (K := 32) (N := 256) x w b

/-- The body's stored value is the one-factor layer of the blocks it loaded. -/
theorem stored_eq (x0 : Vec Ideal S5000x32 .f32) (x1 : Vec Ideal S32x256 .f32) (x2 : Vec Ideal S256 .f32) :
    k0_pay1 (F := Ideal) x0 x1 x2 = layer1 (M := 5000) (K := 32) (N := 256) x0 x1 x2 := by
  unfold k0_pay1
  exact unit_layer1 dot_S5000x32_S32x256_S5000x256_1_0_0_1_n_n rfl none x0 x1 x2 bitsLt_bf16_f32 shapeCasts_S256_S1x256 broadcasts_S1x256_S5000x256

/-- An entry of a block's layer equals an entry of the whole arrays' layer as soon as the block's row is that row of the
    whole input and the weight and bias agree on the column. -/
theorem layer1_row (X : S500000x32.Idx → Elt Ideal .f32) (W : S32x256.Idx → Elt Ideal .f32) (B : S256.Idx → Elt Ideal .f32)
    (xb : S5000x32.Idx → Elt Ideal .f32) (wb : S32x256.Idx → Elt Ideal .f32) (bb : S256.Idx → Elt Ideal .f32)
    (j : S5000x256.Idx) (i : S500000x256.Idx)
    (hx : ∀ d : Fin 32, xb (ix2 (j 0) d) = X (ix2 (i 0) d)) (hw : ∀ d : Fin 32, wb (ix2 d (j 1)) = W (ix2 d (i 1)))
    (hb : bb (ix1 (j 1)) = B (ix1 (i 1))) :
    layer1 (M := 5000) (K := 32) (N := 256) xb wb bb j = whole X W B i := by
  show max (inner (M := 5000) (K := 32) (N := 256) xb wb (j 0) (j 1) + bb (ix1 (j 1))) _ = max (inner (M := 500000) (K := 32) (N := 256) X W (i 0) (i 1) + B (ix1 (i 1))) _
  have hs : inner (M := 5000) (K := 32) (N := 256) xb wb (j 0) (j 1) = inner (M := 500000) (K := 32) (N := 256) X W (i 0) (i 1) :=
    Finset.sum_congr rfl fun d _ => by rw [hx d, hw d]
  rw [hs, hb]

/-- The block index maps over the grid: the input and the output move together along the rows, one block per point;
    the weight and the bias stay at block 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 99 :=
  (by decide +kernel : ∀ t : Fin grid0.N, _)

/-- Every block of rows is some point's. -/
theorem index_onto : ∀ q : Fin 100, ∃ t : Fin cfg0.N, win0_3.index t = ![q.val, 0] :=
  (by decide +kernel : ∀ q : Fin 100, ∃ t : Fin grid0.N, win0_3.index t = ![q.val, 0])

/-- What point t writes back is block t of the layer of the arrays the region found. -/
theorem flushed_eq (c : Dev nD) (t : Fin cfg0.N) :
    (dat0 V c).flushed 3 t
      = ((cfg0.win 3).blk t).view.read (Elt Ideal) (whole (V c main_arg1) (V c main_arg8) (V c main_arg9)) := by
  show (cfg0.win 3).cut (grid0.coords t) ((dat0 V c).after 3 t) = _
  rw [after0_3]
  unfold out0_3
  rw [View.canon_unit_zero zero2]
  simp only [View.ld_unit_zero (S := S5000x32) zero2, View.ld_unit_zero (S := S32x256) zero2, View.ld_unit_zero (S := S256) zero1]
  rw [stored_eq]
  obtain ⟨e0, e1, e2, e3, e4, e5, e6⟩ := index_facts t
  funext j
  refine layer1_row (V c main_arg1) (V c main_arg8) (V c main_arg9) (iblk0 V c 0 t) (iblk0 V c 1 t) (iblk0 V c 2 t) j
    (((cfg0.win 3).blk t).view.emb j) (fun d => ?_) (fun d => ?_) ?_
  · show V c main_arg1 (((cfg0.win 0).blk t).view.emb (ix2 (j 0) d)) = V c main_arg1 (ix2 ((((cfg0.win 3).blk t).view.emb j) 0) d)
    refine congrArg (V c main_arg1) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 32 + 1 * d.val = d.val; omega
  · show V c main_arg8 (((cfg0.win 1).blk t).view.emb (ix2 d (j 1))) = V c main_arg8 (ix2 d ((((cfg0.win 3).blk t).view.emb j) 1))
    refine congrArg (V c main_arg8) (funext fun a => Fin.ext ?_)
    match a with
    | ⟨0, _⟩ => show win0_1.index t (0 : Fin 2) * 32 + 1 * d.val = d.val; omega
    | ⟨1, _⟩ => show win0_1.index t (1 : Fin 2) * 256 + 1 * (j 1).val = win0_3.index t (1 : Fin 2) * 256 + 1 * (j 1).val; omega
  · show V c main_arg9 (((cfg0.win 2).blk t).view.emb (ix1 (j 1))) = V c main_arg9 (ix1 ((((cfg0.win 3).blk t).view.emb j) 1))
    refine congrArg (V c main_arg9) (funext fun a => Fin.ext ?_)
    match a with
    | ⟨0, _⟩ => show win0_2.index t (0 : Fin 1) * 256 + 1 * (j 1).val = win0_3.index t (1 : Fin 2) * 256 + 1 * (j 1).val; omega

/-- An index of the output array lies in point t's block iff each coordinate lies in the block's range. -/
theorem mem_block (t : Fin cfg0.N) (i : S500000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v0).slice (win0_3.rect t)).set ↔ _
  rw [View.set_slice_whole, Rect.mem_set_unit]
  exact Iff.rfl

/-- Every index of the output array lies in some point's block: row r in block r / 5000. -/
theorem covered (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- After the region the output array is the layer of the arrays the region found. -/
theorem final (c : Dev nD) :
    (dat0 V c).arrAt 3 cfg0.N = whole (V c main_arg1) (V c main_arg8) (V c main_arg9) :=
  (dat0 V c).arrAt_eq_of_cover 3 (whole (V c main_arg1) (V c main_arg8) (V c main_arg9)) (fun t _ => flushed_eq V c t) covered

end Cert.KernelIdeal.EdgeLayer1

end
-- ==== Proof.NodeLayer1.lean ====
/-
  The first node layer's region: its output array as one function of the arrays it reads.

  The region walks 25 blocks of 2000 rows. At block t the body sees rows t*2000 .. t*2000+1999 of the three inputs ([50000, 64],
  [50000, 256], [50000, 256]), the three whole weights and the whole bias, and writes the same rows of the [50000, 256] output. An
  entry of the three-factor layer depends on one row of each input only, so what block t writes is block t of the layer of
  the whole arrays; the 25 blocks tile the rows (row r lies in block r / 2000), so after the region the output array is the
  layer of the whole arrays.
-/
import proofs.«124187_j10651518894533_2_alg».proof.Proof.Gen.KernelIdeal.Frame
import proofs.«124187_j10651518894533_2_alg».proof.Proof.LibRowLayers
import Idealize.ShloMosaic.Lib.Pipeline.Value

set_option maxRecDepth 16384

noncomputable section

namespace Cert.KernelIdeal.NodeLayer1

open Cert.KernelIdeal Cert.KernelIdeal.Gen Cert.LibRowLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer of whole arrays: entry (p, f) is max (((x1_p . w1_f + x2_p . w2_f) + x3_p . w3_f) + b f, 0). -/
abbrev whole (x1 : S50000x64.Idx → Elt Ideal .f32) (w1 : S64x256.Idx → Elt Ideal .f32)
    (x2 : S50000x256.Idx → Elt Ideal .f32) (w2 : S256x256.Idx → Elt Ideal .f32)
    (x3 : S50000x256.Idx → Elt Ideal .f32) (w3 : S256x256.Idx → Elt Ideal .f32) (b : S256.Idx → Elt Ideal .f32) :
    S50000x256.Idx → Elt Ideal .f32 := layer3 (M := 50000) (K1 := 64) (K2 := 256) (K3 := 256) (N := 256) x1 w1 x2 w2 x3 w3 b

/-- The body's stored value is the three-factor layer of the blocks it loaded. -/
theorem stored_eq (x1 : Vec Ideal S2000x64 .f32) (w1 : Vec Ideal S64x256 .f32) (x2 : Vec Ideal S2000x256 .f32)
    (w2 : Vec Ideal S256x256 .f32) (x3 : Vec Ideal S2000x256 .f32) (w3 : Vec Ideal S256x256 .f32) (b : Vec Ideal S256 .f32) :
    k1_pay1 (F := Ideal) x1 w1 x2 w2 x3 w3 b = layer3 (M := 2000) (K1 := 64) (K2 := 256) (K3 := 256) (N := 256) x1 w1 x2 w2 x3 w3 b := by
  unfold k1_pay1
  simp only [shapeCast_self]
  exact unit_layer3 dot_S2000x64_S64x256_S2000x256_1_0_0_1_n_n rfl dot_S2000x256_S256x256_S2000x256_1_0_0_1_n_n rfl dot_S2000x256_S256x256_S2000x256_1_0_0_1_n_n rfl none x1 w1 x2 w2 x3 w3 b bitsLt_bf16_f32 shapeCasts_S256_S1x256 broadcasts_S1x256_S2000x256

/-- An entry of a block's layer equals an entry of the whole arrays' layer as soon as the blocks' rows are those rows of
    the whole inputs and the weights and the bias agree on the column. -/
theorem layer3_row (X1 : S50000x64.Idx → Elt Ideal .f32) (W1 : S64x256.Idx → Elt Ideal .f32)
    (X2 : S50000x256.Idx → Elt Ideal .f32) (W2 : S256x256.Idx → Elt Ideal .f32)
    (X3 : S50000x256.Idx → Elt Ideal .f32) (W3 : S256x256.Idx → Elt Ideal .f32) (B : S256.Idx → Elt Ideal .f32)
    (xb1 : S2000x64.Idx → Elt Ideal .f32) (wb1 : S64x256.Idx → Elt Ideal .f32)
    (xb2 : S2000x256.Idx → Elt Ideal .f32) (wb2 : S256x256.Idx → Elt Ideal .f32)
    (xb3 : S2000x256.Idx → Elt Ideal .f32) (wb3 : S256x256.Idx → Elt Ideal .f32) (bb : S256.Idx → Elt Ideal .f32)
    (j : S2000x256.Idx) (i : S50000x256.Idx)
    (hx1 : ∀ d : Fin 64, xb1 (ix2 (j 0) d) = X1 (ix2 (i 0) d)) (hw1 : ∀ d : Fin 64, wb1 (ix2 d (j 1)) = W1 (ix2 d (i 1)))
    (hx2 : ∀ d : Fin 256, xb2 (ix2 (j 0) d) = X2 (ix2 (i 0) d)) (hw2 : ∀ d : Fin 256, wb2 (ix2 d (j 1)) = W2 (ix2 d (i 1)))
    (hx3 : ∀ d : Fin 256, xb3 (ix2 (j 0) d) = X3 (ix2 (i 0) d)) (hw3 : ∀ d : Fin 256, wb3 (ix2 d (j 1)) = W3 (ix2 d (i 1)))
    (hb : bb (ix1 (j 1)) = B (ix1 (i 1))) :
    layer3 (M := 2000) (K1 := 64) (K2 := 256) (K3 := 256) (N := 256) xb1 wb1 xb2 wb2 xb3 wb3 bb j = whole X1 W1 X2 W2 X3 W3 B i := by
  have hs1 : inner (M := 2000) (K := 64) (N := 256) xb1 wb1 (j 0) (j 1) = inner (M := 50000) (K := 64) (N := 256) X1 W1 (i 0) (i 1) :=
    Finset.sum_congr rfl fun d _ => by rw [hx1 d, hw1 d]
  have hs2 : inner (M := 2000) (K := 256) (N := 256) xb2 wb2 (j 0) (j 1) = inner (M := 50000) (K := 256) (N := 256) X2 W2 (i 0) (i 1) :=
    Finset.sum_congr rfl fun d _ => by rw [hx2 d, hw2 d]
  have hs3 : inner (M := 2000) (K := 256) (N := 256) xb3 wb3 (j 0) (j 1) = inner (M := 50000) (K := 256) (N := 256) X3 W3 (i 0) (i 1) :=
    Finset.sum_congr rfl fun d _ => by rw [hx3 d, hw3 d]
  show max (((inner (M := 2000) (K := 64) (N := 256) xb1 wb1 (j 0) (j 1) + inner (M := 2000) (K := 256) (N := 256) xb2 wb2 (j 0) (j 1))
      + inner (M := 2000) (K := 256) (N := 256) xb3 wb3 (j 0) (j 1)) + bb (ix1 (j 1))) _
    = max (((inner (M := 50000) (K := 64) (N := 256) X1 W1 (i 0) (i 1) + inner (M := 50000) (K := 256) (N := 256) X2 W2 (i 0) (i 1))
      + inner (M := 50000) (K := 256) (N := 256) X3 W3 (i 0) (i 1)) + B (ix1 (i 1))) _
  rw [hs1, hs2, hs3, hb]

/-- The block index maps over the grid: the three inputs and the output move together along the rows, one block per
    point; the weights and the bias stay at block 0. -/
theorem index_facts : ∀ t : Fin cfg1.N, win1_0.index t (0 : Fin 2) = win1_7.index t (0 : Fin 2) ∧ win1_0.index t (1 : Fin 2) = 0
    ∧ win1_1.index t (0 : Fin 2) = 0 ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = win1_7.index t (0 : Fin 2) ∧ win1_4.index t (1 : Fin 2) = 0
    ∧ win1_5.index t (0 : Fin 2) = 0 ∧ win1_5.index t (1 : Fin 2) = 0
    ∧ win1_6.index t (0 : Fin 1) = 0
    ∧ win1_7.index t (1 : Fin 2) = 0 ∧ win1_7.index t (0 : Fin 2) ≤ 24 :=
  (by decide +kernel : ∀ t : Fin grid1.N, _)

/-- Every block of rows is some point's. -/
theorem index_onto : ∀ q : Fin 25, ∃ t : Fin cfg1.N, win1_7.index t = ![q.val, 0] :=
  (by decide +kernel : ∀ q : Fin 25, ∃ t : Fin grid1.N, win1_7.index t = ![q.val, 0])

/-- What point t writes back is block t of the layer of the arrays the region found. -/
theorem flushed_eq (c : Dev nD) (t : Fin cfg1.N) :
    (dat1 V c).flushed 7 t
      = ((cfg1.win 7).blk t).view.read (Elt Ideal)
          (whole (V c main_arg0) (V c main_arg10) (V c main_v11) (V c main_arg11) (V c main_v22) (V c main_arg12) (V c main_arg13)) := by
  show (cfg1.win 7).cut (grid1.coords t) ((dat1 V c).after 7 t) = _
  rw [after1_7]
  unfold out1_7
  rw [View.canon_unit_zero zero2]
  simp only [View.ld_unit_zero (S := S2000x64) zero2, View.ld_unit_zero (S := S64x256) zero2, View.ld_unit_zero (S := S2000x256) zero2,
    View.ld_unit_zero (S := S256x256) zero2, View.ld_unit_zero (S := S2000x256) zero2, View.ld_unit_zero (S := S256x256) zero2,
    View.ld_unit_zero (S := S256) zero1]
  rw [stored_eq]
  obtain ⟨e0, e1, e2, e3, e4, e5, e6, e7, e8, e9, e10, e11, e12, e13, e14⟩ := index_facts t
  funext j
  refine layer3_row (V c main_arg0) (V c main_arg10) (V c main_v11) (V c main_arg11) (V c main_v22) (V c main_arg12) (V c main_arg13)
    (iblk1 V c 0 t) (iblk1 V c 1 t) (iblk1 V c 2 t) (iblk1 V c 3 t) (iblk1 V c 4 t) (iblk1 V c 5 t) (iblk1 V c 6 t) j
    (((cfg1.win 7).blk t).view.emb j) (fun d => ?_) (fun d => ?_) (fun d => ?_) (fun d => ?_) (fun d => ?_) (fun d => ?_) ?_
  · show V c main_arg0 (((cfg1.win 0).blk t).view.emb (ix2 (j 0) d)) = V c main_arg0 (ix2 ((((cfg1.win 7).blk t).view.emb j) 0) d)
    refine congrArg (V c main_arg0) (funext fun a => Fin.ext ?_)
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 64 + 1 * d.val = d.val; omega
  · show V c main_arg10 (((cfg1.win 1).blk t).view.emb (ix2 d (j 1))) = V c main_arg10 (ix2 d ((((cfg1.win 7).blk t).view.emb j) 1))
    refine congrArg (V c main_arg10) (funext fun a => Fin.ext ?_)
    match a with
    | ⟨0, _⟩ => show win1_1.index t (0 : Fin 2) * 64 + 1 * d.val = d.val; omega
    | ⟨1, _⟩ => show win1_1.index t (1 : Fin 2) * 256 + 1 * (j 1).val = win1_7.index t (1 : Fin 2) * 256 + 1 * (j 1).val; omega
  · show V c main_v11 (((cfg1.win 2).blk t).view.emb (ix2 (j 0) d)) = V c main_v11 (ix2 ((((cfg1.win 7).blk t).view.emb j) 0) d)
    refine congrArg (V c main_v11) (funext fun a => Fin.ext ?_)
    match a with
    | ⟨0, _⟩ => show win1_2.index t (0 : Fin 2) * 2000 + 1 * (j 0).val = win1_7.index t (0 : Fin 2) * 2000 + 1 * (j 0).val; omega
    | ⟨1, _⟩ => show win1_2.index t (1 : Fin 2) * 256 + 1 * d.val = d.val; omega
  · show V c main_arg11 (((cfg1.win 3).blk t).view.emb (ix2 d (j 1))) = V c main_arg11 (ix2 d ((((cfg1.win 7).blk t).view.emb j) 1))
    refine congrArg (V c main_arg11) (funext fun a => Fin.ext ?_)
    match a with
    | ⟨0, _⟩ => show win1_3.index t (0 : Fin 2) * 256 + 1 * d.val = d.val; omega
    | ⟨1, _⟩ => show win1_3.index t (1 : Fin 2) * 256 + 1 * (j 1).val = win1_7.index t (1 : Fin 2) * 256 + 1 * (j 1).val; omega
  · show V c main_v22 (((cfg1.win 4).blk t).view.emb (ix2 (j 0) d)) = V c main_v22 (ix2 ((((cfg1.win 7).blk t).view.emb j) 0) d)
    refine congrArg (V c main_v22) (funext fun a => Fin.ext ?_)
    match a with
    | ⟨0, _⟩ => show win1_4.index t (0 : Fin 2) * 2000 + 1 * (j 0).val = win1_7.index t (0 : Fin 2) * 2000 + 1 * (j 0).val; omega
    | ⟨1, _⟩ => show win1_4.index t (1 : Fin 2) * 256 + 1 * d.val = d.val; omega
  · show V c main_arg12 (((cfg1.win 5).blk t).view.emb (ix2 d (j 1))) = V c main_arg12 (ix2 d ((((cfg1.win 7).blk t).view.emb j) 1))
    refine congrArg (V c main_arg12) (funext fun a => Fin.ext ?_)
    match a with
    | ⟨0, _⟩ => show win1_5.index t (0 : Fin 2) * 256 + 1 * d.val = d.val; omega
    | ⟨1, _⟩ => show win1_5.index t (1 : Fin 2) * 256 + 1 * (j 1).val = win1_7.index t (1 : Fin 2) * 256 + 1 * (j 1).val; omega
  · show V c main_arg13 (((cfg1.win 6).blk t).view.emb (ix1 (j 1))) = V c main_arg13 (ix1 ((((cfg1.win 7).blk t).view.emb j) 1))
    refine congrArg (V c main_arg13) (funext fun a => Fin.ext ?_)
    match a with
    | ⟨0, _⟩ => show win1_6.index t (0 : Fin 1) * 256 + 1 * (j 1).val = win1_7.index t (1 : Fin 2) * 256 + 1 * (j 1).val; omega

/-- An index of the output array lies in point t's block iff each coordinate lies in the block's range. -/
theorem mem_block (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v23).slice (win1_7.rect t)).set ↔ _
  rw [View.set_slice_whole, Rect.mem_set_unit]
  exact Iff.rfl

/-- Every index of the output array lies in some point's block: row r in block r / 2000. -/
theorem covered (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ := index_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_block]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 256 ≤ (i 1).val ∧ (i 1).val < win1_7.index t (1 : Fin 2) * 256 + 256; omega

/-- After the region the output array is the layer of the arrays the region found. -/
theorem final (c : Dev nD) :
    (dat1 V c).arrAt 7 cfg1.N
      = whole (V c main_arg0) (V c main_arg10) (V c main_v11) (V c main_arg11) (V c main_v22) (V c main_arg12) (V c main_arg13) :=
  (dat1 V c).arrAt_eq_of_cover 7 (whole (V c main_arg0) (V c main_arg10) (V c main_v11) (V c main_arg11) (V c main_v22) (V c main_arg12) (V c main_arg13))
    (fun t _ => flushed_eq V c t) covered

end Cert.KernelIdeal.NodeLayer1

end
-- ==== Proof.EdgeLayer2.lean ====
/-
  The second edge layer's region: its output array as one function of the arrays it reads.

  The region walks 100 blocks of 5000 rows. At block t the body sees rows t*5000 .. t*5000+4999 of the [500000, 256] input, the whole
  [256, 128] weight and the whole [128] bias, and writes rows t*5000 .. t*5000+4999 of the [500000, 128] output. An entry of the one-factor
  layer depends on one row of the input only, so what block t writes is block t of the layer of the whole arrays; the 100
  blocks tile the rows (row r lies in block r / 5000), so after the region the output array is the layer of the whole arrays.
-/
import proofs.«124187_j10651518894533_2_alg».proof.Proof.Gen.KernelIdeal.Frame
import proofs.«124187_j10651518894533_2_alg».proof.Proof.LibRowLayers
import Idealize.ShloMosaic.Lib.Pipeline.Value

set_option maxRecDepth 16384

noncomputable section

namespace Cert.KernelIdeal.EdgeLayer2

open Cert.KernelIdeal Cert.KernelIdeal.Gen Cert.LibRowLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer of whole arrays: entry (p, f) is max (x_p . w_f + b f, 0). -/
abbrev whole (x : S500000x256.Idx → Elt Ideal .f32) (w : S256x128.Idx → Elt Ideal .f32) (b : S128.Idx → Elt Ideal .f32) :
    S500000x128.Idx → Elt Ideal .f32 := layer1 (M := 500000) (K := 256) (N := 128) x w b

/-- The body's stored value is the one-factor layer of the blocks it loaded. -/
theorem stored_eq (x0 : Vec Ideal S5000x256 .f32) (x1 : Vec Ideal S256x128 .f32) (x2 : Vec Ideal S128 .f32) :
    k2_pay1 (F := Ideal) x0 x1 x2 = layer1 (M := 5000) (K := 256) (N := 128) x0 x1 x2 := by
  unfold k2_pay1
  rw [shapeCast_self]
  exact unit_layer1 dot_S5000x256_S256x128_S5000x128_1_0_0_1_n_n rfl none x0 x1 x2 bitsLt_bf16_f32 shapeCasts_S128_S1x128 broadcasts_S1x128_S5000x128

/-- An entry of a block's layer equals an entry of the whole arrays' layer as soon as the block's row is that row of the
    whole input and the weight and bias agree on the column. -/
theorem layer1_row (X : S500000x256.Idx → Elt Ideal .f32) (W : S256x128.Idx → Elt Ideal .f32) (B : S128.Idx → Elt Ideal .f32)
    (xb : S5000x256.Idx → Elt Ideal .f32) (wb : S256x128.Idx → Elt Ideal .f32) (bb : S128.Idx → Elt Ideal .f32)
    (j : S5000x128.Idx) (i : S500000x128.Idx)
    (hx : ∀ d : Fin 256, xb (ix2 (j 0) d) = X (ix2 (i 0) d)) (hw : ∀ d : Fin 256, wb (ix2 d (j 1)) = W (ix2 d (i 1)))
    (hb : bb (ix1 (j 1)) = B (ix1 (i 1))) :
    layer1 (M := 5000) (K := 256) (N := 128) xb wb bb j = whole X W B i := by
  show max (inner (M := 5000) (K := 256) (N := 128) xb wb (j 0) (j 1) + bb (ix1 (j 1))) _ = max (inner (M := 500000) (K := 256) (N := 128) X W (i 0) (i 1) + B (ix1 (i 1))) _
  have hs : inner (M := 5000) (K := 256) (N := 128) xb wb (j 0) (j 1) = inner (M := 500000) (K := 256) (N := 128) X W (i 0) (i 1) :=
    Finset.sum_congr rfl fun d _ => by rw [hx d, hw d]
  rw [hs, hb]

/-- The block index maps over the grid: the input and the output move together along the rows, one block per point;
    the weight and the bias stay at block 0. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) ≤ 99 :=
  (by decide +kernel : ∀ t : Fin grid2.N, _)

/-- Every block of rows is some point's. -/
theorem index_onto : ∀ q : Fin 100, ∃ t : Fin cfg2.N, win2_3.index t = ![q.val, 0] :=
  (by decide +kernel : ∀ q : Fin 100, ∃ t : Fin grid2.N, win2_3.index t = ![q.val, 0])

/-- What point t writes back is block t of the layer of the arrays the region found. -/
theorem flushed_eq (c : Dev nD) (t : Fin cfg2.N) :
    (dat2 V c).flushed 3 t
      = ((cfg2.win 3).blk t).view.read (Elt Ideal) (whole (V c main_v0) (V c main_arg18) (V c main_arg19)) := by
  show (cfg2.win 3).cut (grid2.coords t) ((dat2 V c).after 3 t) = _
  rw [after2_3]
  unfold out2_3
  rw [View.canon_unit_zero zero2]
  simp only [View.ld_unit_zero (S := S5000x256) zero2, View.ld_unit_zero (S := S256x128) zero2, View.ld_unit_zero (S := S128) zero1]
  rw [stored_eq]
  obtain ⟨e0, e1, e2, e3, e4, e5, e6⟩ := index_facts t
  funext j
  refine layer1_row (V c main_v0) (V c main_arg18) (V c main_arg19) (iblk2 V c 0 t) (iblk2 V c 1 t) (iblk2 V c 2 t) j
    (((cfg2.win 3).blk t).view.emb j) (fun d => ?_) (fun d => ?_) ?_
  · show V c main_v0 (((cfg2.win 0).blk t).view.emb (ix2 (j 0) d)) = V c main_v0 (ix2 ((((cfg2.win 3).blk t).view.emb j) 0) d)
    refine congrArg (V c main_v0) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 256 + 1 * d.val = d.val; omega
  · show V c main_arg18 (((cfg2.win 1).blk t).view.emb (ix2 d (j 1))) = V c main_arg18 (ix2 d ((((cfg2.win 3).blk t).view.emb j) 1))
    refine congrArg (V c main_arg18) (funext fun a => Fin.ext ?_)
    match a with
    | ⟨0, _⟩ => show win2_1.index t (0 : Fin 2) * 256 + 1 * d.val = d.val; omega
    | ⟨1, _⟩ => show win2_1.index t (1 : Fin 2) * 128 + 1 * (j 1).val = win2_3.index t (1 : Fin 2) * 128 + 1 * (j 1).val; omega
  · show V c main_arg19 (((cfg2.win 2).blk t).view.emb (ix1 (j 1))) = V c main_arg19 (ix1 ((((cfg2.win 3).blk t).view.emb j) 1))
    refine congrArg (V c main_arg19) (funext fun a => Fin.ext ?_)
    match a with
    | ⟨0, _⟩ => show win2_2.index t (0 : Fin 1) * 128 + 1 * (j 1).val = win2_3.index t (1 : Fin 2) * 128 + 1 * (j 1).val; omega

/-- An index of the output array lies in point t's block iff each coordinate lies in the block's range. -/
theorem mem_block (t : Fin cfg2.N) (i : S500000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v55).slice (win2_3.rect t)).set ↔ _
  rw [View.set_slice_whole, Rect.mem_set_unit]
  exact Iff.rfl

/-- Every index of the output array lies in some point's block: row r in block r / 5000. -/
theorem covered (i : S500000x128.Idx) :
    ∃ t : Fin cfg2.N, (cfg2.win 3).flush t = true ∧ i ∈ ((cfg2.win 3).blk t).view.set := by
  have hi0 : (i 0).val < 500000 := (i 0).isLt
  have hi1 : (i 1).val < 128 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the region the output array is the layer of the arrays the region found. -/
theorem final (c : Dev nD) :
    (dat2 V c).arrAt 3 cfg2.N = whole (V c main_v0) (V c main_arg18) (V c main_arg19) :=
  (dat2 V c).arrAt_eq_of_cover 3 (whole (V c main_v0) (V c main_arg18) (V c main_arg19)) (fun t _ => flushed_eq V c t) covered

end Cert.KernelIdeal.EdgeLayer2

end
-- ==== Proof.NodeLayer2.lean ====
/-
  The second node layer's region: its output array as one function of the arrays it reads.

  The region walks 25 blocks of 2000 rows. At block t the body sees rows t*2000 .. t*2000+1999 of the three inputs ([50000, 256],
  [50000, 128], [50000, 128]), the three whole weights and the whole bias, and writes the same rows of the [50000, 128] output. An
  entry of the three-factor layer depends on one row of each input only, so what block t writes is block t of the layer of
  the whole arrays; the 25 blocks tile the rows (row r lies in block r / 2000), so after the region the output array is the
  layer of the whole arrays.
-/
import proofs.«124187_j10651518894533_2_alg».proof.Proof.Gen.KernelIdeal.Frame
import proofs.«124187_j10651518894533_2_alg».proof.Proof.LibRowLayers
import Idealize.ShloMosaic.Lib.Pipeline.Value

set_option maxRecDepth 16384

noncomputable section

namespace Cert.KernelIdeal.NodeLayer2

open Cert.KernelIdeal Cert.KernelIdeal.Gen Cert.LibRowLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer of whole arrays: entry (p, f) is max (((x1_p . w1_f + x2_p . w2_f) + x3_p . w3_f) + b f, 0). -/
abbrev whole (x1 : S50000x256.Idx → Elt Ideal .f32) (w1 : S256x128.Idx → Elt Ideal .f32)
    (x2 : S50000x128.Idx → Elt Ideal .f32) (w2 : S128x128.Idx → Elt Ideal .f32)
    (x3 : S50000x128.Idx → Elt Ideal .f32) (w3 : S128x128.Idx → Elt Ideal .f32) (b : S128.Idx → Elt Ideal .f32) :
    S50000x128.Idx → Elt Ideal .f32 := layer3 (M := 50000) (K1 := 256) (K2 := 128) (K3 := 128) (N := 128) x1 w1 x2 w2 x3 w3 b

/-- The body's stored value is the three-factor layer of the blocks it loaded. -/
theorem stored_eq (x1 : Vec Ideal S2000x256 .f32) (w1 : Vec Ideal S256x128 .f32) (x2 : Vec Ideal S2000x128 .f32)
    (w2 : Vec Ideal S128x128 .f32) (x3 : Vec Ideal S2000x128 .f32) (w3 : Vec Ideal S128x128 .f32) (b : Vec Ideal S128 .f32) :
    k3_pay1 (F := Ideal) x1 w1 x2 w2 x3 w3 b = layer3 (M := 2000) (K1 := 256) (K2 := 128) (K3 := 128) (N := 128) x1 w1 x2 w2 x3 w3 b := by
  unfold k3_pay1
  simp only [shapeCast_self]
  exact unit_layer3 dot_S2000x256_S256x128_S2000x128_1_0_0_1_n_n rfl dot_S2000x128_S128x128_S2000x128_1_0_0_1_n_n rfl dot_S2000x128_S128x128_S2000x128_1_0_0_1_n_n rfl none x1 w1 x2 w2 x3 w3 b bitsLt_bf16_f32 shapeCasts_S128_S1x128 broadcasts_S1x128_S2000x128

/-- An entry of a block's layer equals an entry of the whole arrays' layer as soon as the blocks' rows are those rows of
    the whole inputs and the weights and the bias agree on the column. -/
theorem layer3_row (X1 : S50000x256.Idx → Elt Ideal .f32) (W1 : S256x128.Idx → Elt Ideal .f32)
    (X2 : S50000x128.Idx → Elt Ideal .f32) (W2 : S128x128.Idx → Elt Ideal .f32)
    (X3 : S50000x128.Idx → Elt Ideal .f32) (W3 : S128x128.Idx → Elt Ideal .f32) (B : S128.Idx → Elt Ideal .f32)
    (xb1 : S2000x256.Idx → Elt Ideal .f32) (wb1 : S256x128.Idx → Elt Ideal .f32)
    (xb2 : S2000x128.Idx → Elt Ideal .f32) (wb2 : S128x128.Idx → Elt Ideal .f32)
    (xb3 : S2000x128.Idx → Elt Ideal .f32) (wb3 : S128x128.Idx → Elt Ideal .f32) (bb : S128.Idx → Elt Ideal .f32)
    (j : S2000x128.Idx) (i : S50000x128.Idx)
    (hx1 : ∀ d : Fin 256, xb1 (ix2 (j 0) d) = X1 (ix2 (i 0) d)) (hw1 : ∀ d : Fin 256, wb1 (ix2 d (j 1)) = W1 (ix2 d (i 1)))
    (hx2 : ∀ d : Fin 128, xb2 (ix2 (j 0) d) = X2 (ix2 (i 0) d)) (hw2 : ∀ d : Fin 128, wb2 (ix2 d (j 1)) = W2 (ix2 d (i 1)))
    (hx3 : ∀ d : Fin 128, xb3 (ix2 (j 0) d) = X3 (ix2 (i 0) d)) (hw3 : ∀ d : Fin 128, wb3 (ix2 d (j 1)) = W3 (ix2 d (i 1)))
    (hb : bb (ix1 (j 1)) = B (ix1 (i 1))) :
    layer3 (M := 2000) (K1 := 256) (K2 := 128) (K3 := 128) (N := 128) xb1 wb1 xb2 wb2 xb3 wb3 bb j = whole X1 W1 X2 W2 X3 W3 B i := by
  have hs1 : inner (M := 2000) (K := 256) (N := 128) xb1 wb1 (j 0) (j 1) = inner (M := 50000) (K := 256) (N := 128) X1 W1 (i 0) (i 1) :=
    Finset.sum_congr rfl fun d _ => by rw [hx1 d, hw1 d]
  have hs2 : inner (M := 2000) (K := 128) (N := 128) xb2 wb2 (j 0) (j 1) = inner (M := 50000) (K := 128) (N := 128) X2 W2 (i 0) (i 1) :=
    Finset.sum_congr rfl fun d _ => by rw [hx2 d, hw2 d]
  have hs3 : inner (M := 2000) (K := 128) (N := 128) xb3 wb3 (j 0) (j 1) = inner (M := 50000) (K := 128) (N := 128) X3 W3 (i 0) (i 1) :=
    Finset.sum_congr rfl fun d _ => by rw [hx3 d, hw3 d]
  show max (((inner (M := 2000) (K := 256) (N := 128) xb1 wb1 (j 0) (j 1) + inner (M := 2000) (K := 128) (N := 128) xb2 wb2 (j 0) (j 1))
      + inner (M := 2000) (K := 128) (N := 128) xb3 wb3 (j 0) (j 1)) + bb (ix1 (j 1))) _
    = max (((inner (M := 50000) (K := 256) (N := 128) X1 W1 (i 0) (i 1) + inner (M := 50000) (K := 128) (N := 128) X2 W2 (i 0) (i 1))
      + inner (M := 50000) (K := 128) (N := 128) X3 W3 (i 0) (i 1)) + B (ix1 (i 1))) _
  rw [hs1, hs2, hs3, hb]

/-- The block index maps over the grid: the three inputs and the output move together along the rows, one block per
    point; the weights and the bias stay at block 0. -/
theorem index_facts : ∀ t : Fin cfg3.N, win3_0.index t (0 : Fin 2) = win3_7.index t (0 : Fin 2) ∧ win3_0.index t (1 : Fin 2) = 0
    ∧ win3_1.index t (0 : Fin 2) = 0 ∧ win3_1.index t (1 : Fin 2) = 0
    ∧ win3_2.index t (0 : Fin 2) = win3_7.index t (0 : Fin 2) ∧ win3_2.index t (1 : Fin 2) = 0
    ∧ win3_3.index t (0 : Fin 2) = 0 ∧ win3_3.index t (1 : Fin 2) = 0
    ∧ win3_4.index t (0 : Fin 2) = win3_7.index t (0 : Fin 2) ∧ win3_4.index t (1 : Fin 2) = 0
    ∧ win3_5.index t (0 : Fin 2) = 0 ∧ win3_5.index t (1 : Fin 2) = 0
    ∧ win3_6.index t (0 : Fin 1) = 0
    ∧ win3_7.index t (1 : Fin 2) = 0 ∧ win3_7.index t (0 : Fin 2) ≤ 24 :=
  (by decide +kernel : ∀ t : Fin grid3.N, _)

/-- Every block of rows is some point's. -/
theorem index_onto : ∀ q : Fin 25, ∃ t : Fin cfg3.N, win3_7.index t = ![q.val, 0] :=
  (by decide +kernel : ∀ q : Fin 25, ∃ t : Fin grid3.N, win3_7.index t = ![q.val, 0])

/-- What point t writes back is block t of the layer of the arrays the region found. -/
theorem flushed_eq (c : Dev nD) (t : Fin cfg3.N) :
    (dat3 V c).flushed 7 t
      = ((cfg3.win 7).blk t).view.read (Elt Ideal)
          (whole (V c main_v23) (V c main_arg20) (V c main_v66) (V c main_arg21) (V c main_v77) (V c main_arg22) (V c main_arg23)) := by
  show (cfg3.win 7).cut (grid3.coords t) ((dat3 V c).after 7 t) = _
  rw [after3_7]
  unfold out3_7
  rw [View.canon_unit_zero zero2]
  simp only [View.ld_unit_zero (S := S2000x256) zero2, View.ld_unit_zero (S := S256x128) zero2, View.ld_unit_zero (S := S2000x128) zero2,
    View.ld_unit_zero (S := S128x128) zero2, View.ld_unit_zero (S := S2000x128) zero2, View.ld_unit_zero (S := S128x128) zero2,
    View.ld_unit_zero (S := S128) zero1]
  rw [stored_eq]
  obtain ⟨e0, e1, e2, e3, e4, e5, e6, e7, e8, e9, e10, e11, e12, e13, e14⟩ := index_facts t
  funext j
  refine layer3_row (V c main_v23) (V c main_arg20) (V c main_v66) (V c main_arg21) (V c main_v77) (V c main_arg22) (V c main_arg23)
    (iblk3 V c 0 t) (iblk3 V c 1 t) (iblk3 V c 2 t) (iblk3 V c 3 t) (iblk3 V c 4 t) (iblk3 V c 5 t) (iblk3 V c 6 t) j
    (((cfg3.win 7).blk t).view.emb j) (fun d => ?_) (fun d => ?_) (fun d => ?_) (fun d => ?_) (fun d => ?_) (fun d => ?_) ?_
  · show V c main_v23 (((cfg3.win 0).blk t).view.emb (ix2 (j 0) d)) = V c main_v23 (ix2 ((((cfg3.win 7).blk t).view.emb j) 0) d)
    refine congrArg (V c main_v23) (funext fun a => Fin.ext ?_)
    match a with
    | ⟨0, _⟩ => show win3_0.index t (0 : Fin 2) * 2000 + 1 * (j 0).val = win3_7.index t (0 : Fin 2) * 2000 + 1 * (j 0).val; omega
    | ⟨1, _⟩ => show win3_0.index t (1 : Fin 2) * 256 + 1 * d.val = d.val; omega
  · show V c main_arg20 (((cfg3.win 1).blk t).view.emb (ix2 d (j 1))) = V c main_arg20 (ix2 d ((((cfg3.win 7).blk t).view.emb j) 1))
    refine congrArg (V c main_arg20) (funext fun a => Fin.ext ?_)
    match a with
    | ⟨0, _⟩ => show win3_1.index t (0 : Fin 2) * 256 + 1 * d.val = d.val; omega
    | ⟨1, _⟩ => show win3_1.index t (1 : Fin 2) * 128 + 1 * (j 1).val = win3_7.index t (1 : Fin 2) * 128 + 1 * (j 1).val; omega
  · show V c main_v66 (((cfg3.win 2).blk t).view.emb (ix2 (j 0) d)) = V c main_v66 (ix2 ((((cfg3.win 7).blk t).view.emb j) 0) d)
    refine congrArg (V c main_v66) (funext fun a => Fin.ext ?_)
    match a with
    | ⟨0, _⟩ => show win3_2.index t (0 : Fin 2) * 2000 + 1 * (j 0).val = win3_7.index t (0 : Fin 2) * 2000 + 1 * (j 0).val; omega
    | ⟨1, _⟩ => show win3_2.index t (1 : Fin 2) * 128 + 1 * d.val = d.val; omega
  · show V c main_arg21 (((cfg3.win 3).blk t).view.emb (ix2 d (j 1))) = V c main_arg21 (ix2 d ((((cfg3.win 7).blk t).view.emb j) 1))
    refine congrArg (V c main_arg21) (funext fun a => Fin.ext ?_)
    match a with
    | ⟨0, _⟩ => show win3_3.index t (0 : Fin 2) * 128 + 1 * d.val = d.val; omega
    | ⟨1, _⟩ => show win3_3.index t (1 : Fin 2) * 128 + 1 * (j 1).val = win3_7.index t (1 : Fin 2) * 128 + 1 * (j 1).val; omega
  · show V c main_v77 (((cfg3.win 4).blk t).view.emb (ix2 (j 0) d)) = V c main_v77 (ix2 ((((cfg3.win 7).blk t).view.emb j) 0) d)
    refine congrArg (V c main_v77) (funext fun a => Fin.ext ?_)
    match a with
    | ⟨0, _⟩ => show win3_4.index t (0 : Fin 2) * 2000 + 1 * (j 0).val = win3_7.index t (0 : Fin 2) * 2000 + 1 * (j 0).val; omega
    | ⟨1, _⟩ => show win3_4.index t (1 : Fin 2) * 128 + 1 * d.val = d.val; omega
  · show V c main_arg22 (((cfg3.win 5).blk t).view.emb (ix2 d (j 1))) = V c main_arg22 (ix2 d ((((cfg3.win 7).blk t).view.emb j) 1))
    refine congrArg (V c main_arg22) (funext fun a => Fin.ext ?_)
    match a with
    | ⟨0, _⟩ => show win3_5.index t (0 : Fin 2) * 128 + 1 * d.val = d.val; omega
    | ⟨1, _⟩ => show win3_5.index t (1 : Fin 2) * 128 + 1 * (j 1).val = win3_7.index t (1 : Fin 2) * 128 + 1 * (j 1).val; omega
  · show V c main_arg23 (((cfg3.win 6).blk t).view.emb (ix1 (j 1))) = V c main_arg23 (ix1 ((((cfg3.win 7).blk t).view.emb j) 1))
    refine congrArg (V c main_arg23) (funext fun a => Fin.ext ?_)
    match a with
    | ⟨0, _⟩ => show win3_6.index t (0 : Fin 1) * 128 + 1 * (j 1).val = win3_7.index t (1 : Fin 2) * 128 + 1 * (j 1).val; omega

/-- An index of the output array lies in point t's block iff each coordinate lies in the block's range. -/
theorem mem_block (t : Fin cfg3.N) (i : S50000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v78).slice (win3_7.rect t)).set ↔ _
  rw [View.set_slice_whole, Rect.mem_set_unit]
  exact Iff.rfl

/-- Every index of the output array lies in some point's block: row r in block r / 2000. -/
theorem covered (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  obtain ⟨t, ht⟩ := index_onto ⟨(i 0).val / 2000, by omega⟩
  have q0 : win3_7.index t (0 : Fin 2) = (i 0).val / 2000 := congrFun ht 0
  have q1 : win3_7.index t (1 : Fin 2) = 0 := congrFun ht 1
  refine ⟨t, flush3_7 t, ?_⟩
  rw [mem_block]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- After the region the output array is the layer of the arrays the region found. -/
theorem final (c : Dev nD) :
    (dat3 V c).arrAt 7 cfg3.N
      = whole (V c main_v23) (V c main_arg20) (V c main_v66) (V c main_arg21) (V c main_v77) (V c main_arg22) (V c main_arg23) :=
  (dat3 V c).arrAt_eq_of_cover 7 (whole (V c main_v23) (V c main_arg20) (V c main_v66) (V c main_arg21) (V c main_v77) (V c main_arg22) (V c main_arg23))
    (fun t _ => flushed_eq V c t) covered

end Cert.KernelIdeal.NodeLayer2

end
-- ==== Proof.RefLayers.lean ====
/-
  The reference's four dense layers as row functions.

  In the reference each layer is a chain of array operations: dot_general (one or three of them, added left to right), the
  bias placed on axis 1 and spread over the rows, an addition, and the maximum with a spread zero. Read at an index this is
  the one-factor or the three-factor layer of the operand arrays. The operands that are themselves results of earlier
  stages (the segment means, the earlier layers) are left as those stages' values.
-/
import proofs.«124187_j10651518894533_2_alg».proof.Proof.Gen.ReferenceIdeal.Read
import proofs.«124187_j10651518894533_2_alg».proof.Proof.LibRowLayers

noncomputable section

namespace Cert.ReferenceIdeal.Layers

open Cert.ReferenceIdeal Cert.ReferenceIdeal.Read Cert.LibRowLayers Idealize.ShloMosaic

/-- The first edge layer: relu (e . We1 + be1). -/
theorem edge1_eq (x1 : (⟨S500000x32, .f32⟩ : BufTy).Contents (Elt Ideal)) (x8 : (⟨S32x256, .f32⟩ : BufTy).Contents (Elt Ideal)) (x9 : (⟨S256, .f32⟩ : BufTy).Contents (Elt Ideal)) :
    val_main_v4 (F := Ideal) x1 x8 x9 = layer1 (M := 500000) (K := 32) (N := 256) x1 x8 x9 := by
  unfold val_main_v4 val_main_v3 val_main_v2 val_main_v1 val_main_v0 val_main_call0_v0 val_main_call0_cst
  exact host_layer1 dot_S500000x32_S32x256_S500000x256_1_0_0_1_n_n rfl none x1 x8 x9 _ _ _

/-- The first node layer: relu (x . Wn1 + inc1 . Win1 + out1 . Wout1 + bn1), inc1 and out1 the two segment means of the
    first edge layer. -/
theorem node1_eq (x0 : (⟨S50000x64, .f32⟩ : BufTy).Contents (Elt Ideal)) (x1 : (⟨S500000x32, .f32⟩ : BufTy).Contents (Elt Ideal)) (x4 x5 : (⟨S500000, .i32⟩ : BufTy).Contents (Elt Ideal)) (x8 : (⟨S32x256, .f32⟩ : BufTy).Contents (Elt Ideal))
    (x9 : (⟨S256, .f32⟩ : BufTy).Contents (Elt Ideal)) (x10 : (⟨S64x256, .f32⟩ : BufTy).Contents (Elt Ideal)) (x11 x12 : (⟨S256x256, .f32⟩ : BufTy).Contents (Elt Ideal)) (x13 : (⟨S256, .f32⟩ : BufTy).Contents (Elt Ideal)) :
    val_main_v35 (F := Ideal) x0 x1 x4 x5 x8 x9 x10 x11 x12 x13
      = layer3 (M := 50000) (K1 := 64) (K2 := 256) (K3 := 256) (N := 256) x0 x10 (val_main_v15 (F := Ideal) x1 x5 x8 x9) x11
          (val_main_v26 (F := Ideal) x1 x4 x8 x9) x12 x13 := by
  unfold val_main_v35 val_main_v34 val_main_v33 val_main_v32 val_main_v31 val_main_v30 val_main_v29 val_main_v28 val_main_v27
    val_main_call1_v0 val_main_call1_cst
  exact host_layer3 dot_S50000x64_S64x256_S50000x256_1_0_0_1_n_n rfl dot_S50000x256_S256x256_S50000x256_1_0_0_1_n_n rfl
    dot_S50000x256_S256x256_S50000x256_1_0_0_1_n_n rfl none x0 x10 _ x11 _ x12 x13 _ _ _

/-- The second edge layer: relu (e1 . We2 + be2). -/
theorem edge2_eq (x1 : (⟨S500000x32, .f32⟩ : BufTy).Contents (Elt Ideal)) (x8 : (⟨S32x256, .f32⟩ : BufTy).Contents (Elt Ideal)) (x9 : (⟨S256, .f32⟩ : BufTy).Contents (Elt Ideal)) (x18 : (⟨S256x128, .f32⟩ : BufTy).Contents (Elt Ideal)) (x19 : (⟨S128, .f32⟩ : BufTy).Contents (Elt Ideal)) :
    val_main_v71 (F := Ideal) x1 x8 x9 x18 x19
      = layer1 (M := 500000) (K := 256) (N := 128) (val_main_v4 (F := Ideal) x1 x8 x9) x18 x19 := by
  unfold val_main_v71 val_main_v70 val_main_v69 val_main_v68 val_main_v67 val_main_call3_v0 val_main_call3_cst
  exact host_layer1 dot_S500000x256_S256x128_S500000x128_1_0_0_1_n_n rfl none _ x18 x19 _ _ _

/-- The second node layer: relu (n1 . Wn2 + inc2 . Win2 + out2 . Wout2 + bn2). -/
theorem node2_eq (x0 : (⟨S50000x64, .f32⟩ : BufTy).Contents (Elt Ideal)) (x1 : (⟨S500000x32, .f32⟩ : BufTy).Contents (Elt Ideal)) (x4 x5 : (⟨S500000, .i32⟩ : BufTy).Contents (Elt Ideal)) (x8 : (⟨S32x256, .f32⟩ : BufTy).Contents (Elt Ideal))
    (x9 : (⟨S256, .f32⟩ : BufTy).Contents (Elt Ideal)) (x10 : (⟨S64x256, .f32⟩ : BufTy).Contents (Elt Ideal)) (x11 x12 : (⟨S256x256, .f32⟩ : BufTy).Contents (Elt Ideal)) (x13 : (⟨S256, .f32⟩ : BufTy).Contents (Elt Ideal))
    (x18 : (⟨S256x128, .f32⟩ : BufTy).Contents (Elt Ideal)) (x19 : (⟨S128, .f32⟩ : BufTy).Contents (Elt Ideal)) (x20 : (⟨S256x128, .f32⟩ : BufTy).Contents (Elt Ideal)) (x21 x22 : (⟨S128x128, .f32⟩ : BufTy).Contents (Elt Ideal)) (x23 : (⟨S128, .f32⟩ : BufTy).Contents (Elt Ideal)) :
    val_main_v102 (F := Ideal) x0 x1 x4 x5 x8 x9 x10 x11 x12 x13 x18 x19 x20 x21 x22 x23
      = layer3 (M := 50000) (K1 := 256) (K2 := 128) (K3 := 128) (N := 128)
          (val_main_v35 (F := Ideal) x0 x1 x4 x5 x8 x9 x10 x11 x12 x13) x20
          (val_main_v82 (F := Ideal) x1 x5 x8 x9 x18 x19) x21 (val_main_v93 (F := Ideal) x1 x4 x8 x9 x18 x19) x22 x23 := by
  unfold val_main_v102 val_main_v101 val_main_v100 val_main_v99 val_main_v98 val_main_v97 val_main_v96 val_main_v95 val_main_v94
    val_main_call4_v0 val_main_call4_cst
  exact host_layer3 dot_S50000x256_S256x128_S50000x128_1_0_0_1_n_n rfl dot_S50000x128_S128x128_S50000x128_1_0_0_1_n_n rfl
    dot_S50000x128_S128x128_S50000x128_1_0_0_1_n_n rfl none _ x20 _ x21 _ x22 x23 _ _ _

end Cert.ReferenceIdeal.Layers

end
-- ==== Proof.Boundaries.lean ====
/-
  The reference's stages at the kernel's segment boundaries.

  The reference computes the same network with array operations only, stage by stage: the first edge layer e1, its two
  segment means inc1 and out1, the first node layer n1, the first global update u1, then e2, inc2, out2, n2, and the
  tail (second global update, readout, the three-layer action-value head). The kernel interleaves four tiled regions
  (e1, n1, e2, n2) with stretches of exactly those array operations. Walking the boundaries in order: after each region
  its output array is the reference's layer stage (a region computes the row layer of what it reads, and so does the
  reference's chain of operations); after each stretch every buffer it writes holds the reference's stage of the same
  operation, because the stretch applies the same operations to buffers that already hold the reference's stages. No law
  of arithmetic is used: the two programs are the same tree of operations, and finiteness of the inputs is not needed.
-/
import proofs.«124187_j10651518894533_2_alg».proof.Proof.Gen.KernelIdeal.Frame
import proofs.«124187_j10651518894533_2_alg».proof.Proof.Gen.ReferenceIdeal.Read
import proofs.«124187_j10651518894533_2_alg».proof.Proof.Carry
import proofs.«124187_j10651518894533_2_alg».proof.Proof.EdgeLayer1
import proofs.«124187_j10651518894533_2_alg».proof.Proof.NodeLayer1
import proofs.«124187_j10651518894533_2_alg».proof.Proof.EdgeLayer2
import proofs.«124187_j10651518894533_2_alg».proof.Proof.NodeLayer2
import proofs.«124187_j10651518894533_2_alg».proof.Proof.RefLayers

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The reference's stages, at the kernel's argument arrays -/

abbrev E1 := (Cert.ReferenceIdeal.Read.val_main_v4 (F := Ideal) (m ((c : Thread nD τ).loc main_arg1)) (m ((c : Thread nD τ).loc main_arg8)) (m ((c : Thread nD τ).loc main_arg9)))
abbrev INC1 := (Cert.ReferenceIdeal.Read.val_main_v15 (F := Ideal) (m ((c : Thread nD τ).loc main_arg1)) (m ((c : Thread nD τ).loc main_arg5)) (m ((c : Thread nD τ).loc main_arg8)) (m ((c : Thread nD τ).loc main_arg9)))
abbrev OUT1 := (Cert.ReferenceIdeal.Read.val_main_v26 (F := Ideal) (m ((c : Thread nD τ).loc main_arg1)) (m ((c : Thread nD τ).loc main_arg4)) (m ((c : Thread nD τ).loc main_arg8)) (m ((c : Thread nD τ).loc main_arg9)))
abbrev N1 := (Cert.ReferenceIdeal.Read.val_main_v35 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
abbrev U1 := (Cert.ReferenceIdeal.Read.val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
abbrev E2 := (Cert.ReferenceIdeal.Read.val_main_v71 (F := Ideal) (m ((c : Thread nD τ).loc main_arg1)) (m ((c : Thread nD τ).loc main_arg8)) (m ((c : Thread nD τ).loc main_arg9)) (m ((c : Thread nD τ).loc main_arg18)) (m ((c : Thread nD τ).loc main_arg19)))
abbrev INC2 := (Cert.ReferenceIdeal.Read.val_main_v82 (F := Ideal) (m ((c : Thread nD τ).loc main_arg1)) (m ((c : Thread nD τ).loc main_arg5)) (m ((c : Thread nD τ).loc main_arg8)) (m ((c : Thread nD τ).loc main_arg9)) (m ((c : Thread nD τ).loc main_arg18)) (m ((c : Thread nD τ).loc main_arg19)))
abbrev OUT2 := (Cert.ReferenceIdeal.Read.val_main_v93 (F := Ideal) (m ((c : Thread nD τ).loc main_arg1)) (m ((c : Thread nD τ).loc main_arg4)) (m ((c : Thread nD τ).loc main_arg8)) (m ((c : Thread nD τ).loc main_arg9)) (m ((c : Thread nD τ).loc main_arg18)) (m ((c : Thread nD τ).loc main_arg19)))
abbrev N2 := (Cert.ReferenceIdeal.Read.val_main_v102 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
abbrev RES := (Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)))

/-! ## Block 1 -/

/-- After the first region its output array is e1. -/
theorem e1_W1 : W1 m ρ c (Proc.devRef .tc main_v0) = E1 m c :=
  (W1_arr m ρ c 3).trans ((EdgeLayer1.final (V0 m ρ) c).trans
    (Cert.ReferenceIdeal.Layers.edge1_eq (m ((c : Thread nD τ).loc main_arg1)) (m ((c : Thread nD τ).loc main_arg8)) (m ((c : Thread nD τ).loc main_arg9))).symm)

/-- The first stretch turns e1 and the receivers into inc1. -/
theorem inc1_W2 : W2 m ρ c (Proc.devRef .tc main_v11) = INC1 m c := by
  show StableHlo.after hostOps1 (W1 m ρ c) (Proc.devRef .tc main_v11) = _
  dsimp only [hostOps1]
  after_results_simp
  rw [e1_W1 m ρ c, Carry.at_W1 m ρ c main_arg5 (by decide)]
  rfl

/-- The first stretch turns e1 and the senders into out1. -/
theorem out1_W2 : W2 m ρ c (Proc.devRef .tc main_v22) = OUT1 m c := by
  show StableHlo.after hostOps1 (W1 m ρ c) (Proc.devRef .tc main_v22) = _
  dsimp only [hostOps1]
  after_results_simp
  rw [e1_W1 m ρ c, Carry.at_W1 m ρ c main_arg4 (by decide)]
  rfl

/-- After the second region its output array is n1. -/
theorem n1_W3 : W3 m ρ c (Proc.devRef .tc main_v23) = N1 m c := by
  refine (W3_arr m ρ c 7).trans ((NodeLayer1.final (V2 m ρ) c).trans ?_)
  show NodeLayer1.whole (W2 m ρ c (Proc.devRef .tc main_arg0)) (W2 m ρ c (Proc.devRef .tc main_arg10)) (W2 m ρ c (Proc.devRef .tc main_v11))
    (W2 m ρ c (Proc.devRef .tc main_arg11)) (W2 m ρ c (Proc.devRef .tc main_v22)) (W2 m ρ c (Proc.devRef .tc main_arg12)) (W2 m ρ c (Proc.devRef .tc main_arg13)) = _
  rw [Carry.at_W2 m ρ c main_arg0 (by decide) (by decide), Carry.at_W2 m ρ c main_arg10 (by decide) (by decide), Carry.at_W2 m ρ c main_arg11 (by decide) (by decide),
    Carry.at_W2 m ρ c main_arg12 (by decide) (by decide), Carry.at_W2 m ρ c main_arg13 (by decide) (by decide), inc1_W2 m ρ c, out1_W2 m ρ c]
  exact (Cert.ReferenceIdeal.Layers.node1_eq (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

/-- e1 is still in its buffer when the second stretch starts, and when the third region starts. -/
theorem e1_W3 : W3 m ρ c (Proc.devRef .tc main_v0) = E1 m c :=
  (Carry.step_r1 m ρ c main_v0 (by decide)).trans ((Carry.step_h1 m ρ c main_v0 (by decide)).trans (e1_W1 m ρ c))
theorem e1_W5 : W5 m ρ c (Proc.devRef .tc main_v0) = E1 m c :=
  (Carry.step_h2 m ρ c main_v0 (by decide) (by decide)).trans (e1_W3 m ρ c)

/-- The second stretch (with its rectifier) turns u, n1, e1 and the graph indices into u1. -/
theorem u1_W5 : W5 m ρ c (Proc.devRef .tc main_v54) = U1 m c := by
  show StableHlo.after hostOps2_1 (StableHlo.after hostOps2 (W3 m ρ c)) (Proc.devRef .tc main_v54) = _
  dsimp only [hostOps2_1, hostOps2]
  after_results_simp
  rw [n1_W3 m ρ c, e1_W3 m ρ c, Carry.at_W3 m ρ c main_arg2 (by decide) (by decide) (by decide),
    Carry.at_W3 m ρ c main_arg14 (by decide) (by decide) (by decide),
    Carry.at_W3 m ρ c main_arg6 (by decide) (by decide) (by decide),
    Carry.at_W3 m ρ c main_arg15 (by decide) (by decide) (by decide),
    Carry.at_W3 m ρ c main_arg7 (by decide) (by decide) (by decide),
    Carry.at_W3 m ρ c main_arg16 (by decide) (by decide) (by decide),
    Carry.at_W3 m ρ c main_arg17 (by decide) (by decide) (by decide)]
  rfl

/-! ## Block 2 -/

/-- After the third region its output array is e2. -/
theorem e2_W6 : W6 m ρ c (Proc.devRef .tc main_v55) = E2 m c := by
  refine (W6_arr m ρ c 3).trans ((EdgeLayer2.final (V5 m ρ) c).trans ?_)
  show EdgeLayer2.whole (W5 m ρ c (Proc.devRef .tc main_v0)) (W5 m ρ c (Proc.devRef .tc main_arg18)) (W5 m ρ c (Proc.devRef .tc main_arg19)) = _
  rw [e1_W5 m ρ c, Carry.at_W5 m ρ c main_arg18 (by decide) (by decide) (by decide) (by decide) (by decide), Carry.at_W5 m ρ c main_arg19 (by decide) (by decide) (by decide) (by decide) (by decide)]
  exact (Cert.ReferenceIdeal.Layers.edge2_eq (m ((c : Thread nD τ).loc main_arg1)) (m ((c : Thread nD τ).loc main_arg8)) (m ((c : Thread nD τ).loc main_arg9)) (m ((c : Thread nD τ).loc main_arg18)) (m ((c : Thread nD τ).loc main_arg19))).symm

/-- The third stretch turns e2 and the receivers into inc2, e2 and the senders into out2. -/
theorem inc2_W7 : W7 m ρ c (Proc.devRef .tc main_v66) = INC2 m c := by
  show StableHlo.after hostOps3 (W6 m ρ c) (Proc.devRef .tc main_v66) = _
  dsimp only [hostOps3]
  after_results_simp
  rw [e2_W6 m ρ c, Carry.at_W6 m ρ c main_arg5 (by decide) (by decide) (by decide) (by decide) (by decide) (by decide)]
  rfl

theorem out2_W7 : W7 m ρ c (Proc.devRef .tc main_v77) = OUT2 m c := by
  show StableHlo.after hostOps3 (W6 m ρ c) (Proc.devRef .tc main_v77) = _
  dsimp only [hostOps3]
  after_results_simp
  rw [e2_W6 m ρ c, Carry.at_W6 m ρ c main_arg4 (by decide) (by decide) (by decide) (by decide) (by decide) (by decide)]
  rfl

/-- n1 is still in its buffer when the fourth region starts. -/
theorem n1_W7 : W7 m ρ c (Proc.devRef .tc main_v23) = N1 m c :=
  (Carry.step_h3 m ρ c main_v23 (by decide)).trans ((Carry.step_r2 m ρ c main_v23 (by decide)).trans
    ((Carry.step_h2 m ρ c main_v23 (by decide) (by decide)).trans (n1_W3 m ρ c)))

/-- After the fourth region its output array is n2. -/
theorem n2_W8 : W8 m ρ c (Proc.devRef .tc main_v78) = N2 m c := by
  refine (W8_arr m ρ c 7).trans ((NodeLayer2.final (V7 m ρ) c).trans ?_)
  show NodeLayer2.whole (W7 m ρ c (Proc.devRef .tc main_v23)) (W7 m ρ c (Proc.devRef .tc main_arg20)) (W7 m ρ c (Proc.devRef .tc main_v66))
    (W7 m ρ c (Proc.devRef .tc main_arg21)) (W7 m ρ c (Proc.devRef .tc main_v77)) (W7 m ρ c (Proc.devRef .tc main_arg22)) (W7 m ρ c (Proc.devRef .tc main_arg23)) = _
  rw [n1_W7 m ρ c, inc2_W7 m ρ c, out2_W7 m ρ c, Carry.at_W7 m ρ c main_arg20 (by decide) (by decide) (by decide) (by decide) (by decide) (by decide) (by decide),
    Carry.at_W7 m ρ c main_arg21 (by decide) (by decide) (by decide) (by decide) (by decide) (by decide) (by decide),
    Carry.at_W7 m ρ c main_arg22 (by decide) (by decide) (by decide) (by decide) (by decide) (by decide) (by decide),
    Carry.at_W7 m ρ c main_arg23 (by decide) (by decide) (by decide) (by decide) (by decide) (by decide) (by decide)]
  exact (Cert.ReferenceIdeal.Layers.node2_eq (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))).symm

/-- u1 and e2 are still in their buffers when the tail starts. -/
theorem u1_W8 : W8 m ρ c (Proc.devRef .tc main_v54) = U1 m c :=
  (Carry.step_r3 m ρ c main_v54 (by decide)).trans ((Carry.step_h3 m ρ c main_v54 (by decide)).trans
    ((Carry.step_r2 m ρ c main_v54 (by decide)).trans (u1_W5 m ρ c)))
theorem e2_W8 : W8 m ρ c (Proc.devRef .tc main_v55) = E2 m c :=
  (Carry.step_r3 m ρ c main_v55 (by decide)).trans ((Carry.step_h3 m ρ c main_v55 (by decide)).trans (e2_W6 m ρ c))

end Cert.KernelIdeal.Boundaries

end
-- ==== Proof.Tail.lean ====
/-
  The tail of the network at the kernel's last boundary.

  After the fourth region the kernel runs seven stretches of array operations: the second global update u2 from u1, n2,
  e2 and the graph indices, its rectifier, the linear readout of u2, the join of the readout with the action array along
  the columns, and the three dense layers of the head with their rectifiers. These are the reference's own operations in
  the reference's order, applied to buffers that hold the reference's stages u1, n2, e2 and the argument arrays, so the
  result buffer ends at the reference's last stage. The join of two arrays is written as a plain function of the two
  arrays so that the contents of each can be replaced by an equal array.
-/
import proofs.«124187_j10651518894533_2_alg».proof.Proof.Boundaries

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

/-- Two arrays joined along one axis, as a function of the two arrays. -/
def joinTwo {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concatenate_pair {α : Type} (t : Shape) (a : Fin t.rank) (s1 s2 : Shape) (h : Shape.Concatenates [s1, s2] t a)
    (x : s1.Idx → α) (y : s2.Idx → α) : concatenate t a [⟨s1, x⟩, ⟨s2, y⟩] h = joinTwo t a s1 s2 h x y := rfl

variable (m : (ℓ : Loc nD τ sig) → Buf (Elt Ideal) ℓ) (ρ : Dev nD → PrngReg) (c : Dev nD)

set_option maxHeartbeats 4000000 in
/-- The seven tail stretches turn u1, n2, e2, the action array and the head's weights into the result. -/
theorem result_W15 : W15 m ρ c (Proc.devRef .tc main_v128) = RES m c := by
  show StableHlo.after hostOps4_6 (StableHlo.after hostOps4_5 (StableHlo.after hostOps4_4 (StableHlo.after hostOps4_3
    (StableHlo.after hostOps4_2 (StableHlo.after hostOps4_1 (StableHlo.after hostOps4 (W8 m ρ c))))))) (Proc.devRef .tc main_v128) = _
  dsimp only [hostOps4_6, hostOps4_5, hostOps4_4, hostOps4_3, hostOps4_2, hostOps4_1, hostOps4]
  after_results_simp
  simp only [concatenate_pair]
  after_results_simp
  rw [u1_W8 m ρ c, n2_W8 m ρ c, e2_W8 m ρ c, Carry.at_W8 m ρ c main_arg24 (by decide) (by decide) (by decide) (by decide) (by decide) (by decide) (by decide) (by decide),
    Carry.at_W8 m ρ c main_arg6 (by decide) (by decide) (by decide) (by decide) (by decide) (by decide) (by decide) (by decide),
    Carry.at_W8 m ρ c main_arg25 (by decide) (by decide) (by decide) (by decide) (by decide) (by decide) (by decide) (by decide),
    Carry.at_W8 m ρ c main_arg7 (by decide) (by decide) (by decide) (by decide) (by decide) (by decide) (by decide) (by decide),
    Carry.at_W8 m ρ c main_arg26 (by decide) (by decide) (by decide) (by decide) (by decide) (by decide) (by decide) (by decide),
    Carry.at_W8 m ρ c main_arg27 (by decide) (by decide) (by decide) (by decide) (by decide) (by decide) (by decide) (by decide),
    Carry.at_W8 m ρ c main_arg28 (by decide) (by decide) (by decide) (by decide) (by decide) (by decide) (by decide) (by decide),
    Carry.at_W8 m ρ c main_arg29 (by decide) (by decide) (by decide) (by decide) (by decide) (by decide) (by decide) (by decide),
    Carry.at_W8 m ρ c main_arg3 (by decide) (by decide) (by decide) (by decide) (by decide) (by decide) (by decide) (by decide),
    Carry.at_W8 m ρ c main_arg30 (by decide) (by decide) (by decide) (by decide) (by decide) (by decide) (by decide) (by decide),
    Carry.at_W8 m ρ c main_arg31 (by decide) (by decide) (by decide) (by decide) (by decide) (by decide) (by decide) (by decide),
    Carry.at_W8 m ρ c main_arg32 (by decide) (by decide) (by decide) (by decide) (by decide) (by decide) (by decide) (by decide),
    Carry.at_W8 m ρ c main_arg33 (by decide) (by decide) (by decide) (by decide) (by decide) (by decide) (by decide) (by decide),
    Carry.at_W8 m ρ c main_arg34 (by decide) (by decide) (by decide) (by decide) (by decide) (by decide) (by decide) (by decide),
    Carry.at_W8 m ρ c main_arg35 (by decide) (by decide) (by decide) (by decide) (by decide) (by decide) (by decide) (by decide)]
  rfl

end Cert.KernelIdeal.Boundaries

end
-- ==== Proof.lean ====
/-
  A two-block graph network with an action-value head: four Pallas regions against the all-host reference.

  The network: an edge layer e1 = relu (e.We1 + be1); its segment means over receivers and senders, inc1 and out1; a node
  layer n1 = relu (x.Wn1 + inc1.Win1 + out1.Wout1 + bn1); a global update u1 from u and the per-graph segment means of n1
  and e1; then a second block of the same shape on e1, n1, u1 giving e2, n2, u2; a linear readout of u2 joined with the
  action array; and a three-layer head down to one value per graph. The kernel computes the four dense layers e1, n1, e2,
  n2 in row-tiled regions (operands narrowed to bf16 before each matrix product, accumulated in f32) and leaves everything
  else to the same array operations the reference uses. On the extended reals narrowing is the identity, a matrix product
  into a zero accumulator is the host's dot_general, and the row tiles tile the rows, so each region's output array is the
  reference's value of the same layer; the array operations between the regions are the reference's own, applied to equal
  operands. The two programs are then the same tree of sums, products, quotients and maxima of the arguments: no
  rearrangement of arithmetic is needed, and the finiteness of the inputs is never used.

  The frames of the two kernel programs are their generated frame certificates; the reference's frame is its generated
  run with the result dropped; the idealization ledger is empty.
-/
import proofs.«124187_j10651518894533_2_alg».proof.Defs
import proofs.«124187_j10651518894533_2_alg».proof.Proof.Gen.Kernel
import proofs.«124187_j10651518894533_2_alg».proof.Proof.Gen.Kernel.Frame
import proofs.«124187_j10651518894533_2_alg».proof.Proof.Gen.KernelIdeal
import proofs.«124187_j10651518894533_2_alg».proof.Proof.Gen.KernelIdeal.Frame
import proofs.«124187_j10651518894533_2_alg».proof.Proof.Gen.ReferenceIdeal
import proofs.«124187_j10651518894533_2_alg».proof.Proof.Gen.Pre_finite_inputs
import proofs.«124187_j10651518894533_2_alg».proof.Proof.Gen.ReferenceIdeal.Run
import proofs.«124187_j10651518894533_2_alg».proof.Proof.Gen.ReferenceIdeal.Read
import proofs.«124187_j10651518894533_2_alg».proof.Proof.KernelRun
import proofs.«124187_j10651518894533_2_alg».proof.Proof.Tail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's last stage of the (agreeing) argument arrays in their result buffers. -/
theorem algebraic : Cert.algebraic_KernelIdeal_ReferenceIdeal := by
  intro m ρ m' ρ' _ hagree
  refine ⟨fun c => Cert.KernelIdeal.Boundaries.RES m c, ?_, ?_⟩
  · exact (θ_run Cert.KernelIdeal.defs _ _).mono
      (fun r h c => ⟨(h c).1.trans (Cert.KernelIdeal.Boundaries.result_W15 m ρ c), (h c).2⟩)
      (Cert.KernelIdeal.Valued.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v152_eq]
    obtain ⟨h0, h1, h2, h3, h4, h5, h6, h7, h8, h9, h10, h11, h12, h13, h14, h15, h16, h17, h18, h19, h20, h21, h22, h23, h24, h25, h26, h27, h28, h29, h30, h31, h32, h33, h34, h35⟩ := hagree c
    rw [h0, h1, h2, h3, h4, h5, h6, h7, h8, h9, h10, h11, h12, h13, h14, h15, h16, h17, h18, h19, h20, h21, h22, h23, h24, h25, h26, h27, h28, h29, h30, h31, h32, h33, h34, h35]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
